-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x14x14 : Shape := ⟨4, ![64, 2048, 14, 14]⟩
abbrev S4096x2048 : Shape := ⟨2, ![4096, 2048]⟩
abbrev S4096 : Shape := ⟨1, ![4096]⟩
abbrev S8192x4096 : Shape := ⟨2, ![8192, 4096]⟩
abbrev S8192 : Shape := ⟨1, ![8192]⟩
abbrev S_ : Shape := ⟨0, ![]⟩

class Facts : Prop where
  bcast_S_S64x2048x14x14 : S_.BroadcastsInDim S64x2048x14x14 (![] : Fin 0 → Fin S64x2048x14x14.rank)
  reducesTo_S64x2048x14x14_S_d0_1_2_3 : S64x2048x14x14.ReducesTo [0, 1, 2, 3] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S8192x4096 : S_.BroadcastsInDim S8192x4096 (![] : Fin 0 → Fin S8192x4096.rank)
  reducesTo_S8192x4096_S_d0_1 : S8192x4096.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  main_v23

def fn {F : FTy → Type} [FloatOps F] (main_arg0 : FVec F S64x2048x14x14 .f32) (main_arg1 : FVec F S4096x2048 .f32) (main_arg2 : FVec F S4096 .f32) (main_arg3 : FVec F S8192x4096 .f32) (main_arg4 : FVec F S8192 .f32) : IVec S_ 1 :=
  let main_v0 : FVec F S64x2048x14x14 .f32 := Host.absf main_arg0
  let main_cst : FVec F S_ .f32 := constant S_ .f32 0x7F800000#32
  let main_v1 : FVec F S64x2048x14x14 .f32 := broadcastInDim S64x2048x14x14 ![] bcast_S_S64x2048x14x14 main_cst
  let main_v2 : IVec S64x2048x14x14 1 := cmpf .olt main_v0 main_v1
  let main_c : IVec S_ 1 := constantI S_ 1 1#1
  let main_v3 : IVec S_ 1 := (fun x v => Host.reduce IntOp.andi x v reducesTo_S64x2048x14x14_S_d0_1_2_3 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_v13 main_v16
-- ==== Kernel.lean ====
abbrev S64x2048x14x14 : Shape := ⟨4, ![64, 2048, 14, 14]⟩
abbrev S4096x2048 : Shape := ⟨2, ![4096, 2048]⟩
abbrev S4096 : Shape := ⟨1, ![4096]⟩
abbrev S8192x4096 : Shape := ⟨2, ![8192, 4096]⟩
abbrev S8192 : Shape := ⟨1, ![8192]⟩
abbrev S64x2048x196 : Shape := ⟨3, ![64, 2048, 196]⟩
abbrev S64x2048 : Shape := ⟨2, ![64, 2048]⟩
abbrev S8x2048x196 : Shape := ⟨3, ![8, 2048, 196]⟩
abbrev S8x2048 : Shape := ⟨2, ![8, 2048]⟩
abbrev S64x4096 : Shape := ⟨2, ![64, 4096]⟩
abbrev S1024x2048 : Shape := ⟨2, ![1024, 2048]⟩
abbrev S1024 : Shape := ⟨1, ![1024]⟩
abbrev S64x1024 : Shape := ⟨2, ![64, 1024]⟩
abbrev S1x1024 : Shape := ⟨2, ![1, 1024]⟩
abbrev S64x8192 : Shape := ⟨2, ![64, 8192]⟩
abbrev S512x4096 : Shape := ⟨2, ![512, 4096]⟩
abbrev S512 : Shape := ⟨1, ![512]⟩
abbrev S64x512 : Shape := ⟨2, ![64, 512]⟩
abbrev S1x512 : Shape := ⟨2, ![1, 512]⟩
abbrev S64x4x2048 : Shape := ⟨3, ![64, 4, 2048]⟩
abbrev S64x4x196 : Shape := ⟨3, ![64, 4, 196]⟩
abbrev S8x4x2048 : Shape := ⟨3, ![8, 4, 2048]⟩
abbrev S8x4x196 : Shape := ⟨3, ![8, 4, 196]⟩
abbrev S64x4x14x14 : Shape := ⟨4, ![64, 4, 14, 14]⟩

abbrev nBuf : Space → Nat
  | .hbm => 12
  | .vmem => 24
  | .smem => 0
  | _ => 0

abbrev bufTy : (tb : Table) → Fin (tcTables nBuf tb) → BufTy
  | .hbm, ⟨0, _⟩ => ⟨S64x2048x14x14, .f32⟩
  | .hbm, ⟨1, _⟩ => ⟨S4096x2048, .f32⟩
  | .hbm, ⟨2, _⟩ => ⟨S4096, .f32⟩
  | .hbm, ⟨3, _⟩ => ⟨S8192x4096, .f32⟩
  | .hbm, ⟨4, _⟩ => ⟨S8192, .f32⟩
  | .hbm, ⟨5, _⟩ => ⟨S64x2048x196, .f32⟩
  | .hbm, ⟨6, _⟩ => ⟨S64x2048, .f32⟩
  | .hbm, ⟨7, _⟩ => ⟨S64x4096, .f32⟩
  | .hbm, ⟨8, _⟩ => ⟨S64x8192, .f32⟩
  | .hbm, ⟨9, _⟩ => ⟨S64x4x2048, .f32⟩
  | .hbm, ⟨10, _⟩ => ⟨S64x4x196, .f32⟩
  | .hbm, ⟨11, _⟩ => ⟨S64x4x14x14, .f32⟩
  | .local _ .vmem, ⟨0, _⟩ => ⟨S8x2048x196, .f32⟩
  | .local _ .vmem, ⟨1, _⟩ => ⟨S8x2048x196, .f32⟩
  | .local _ .vmem, ⟨2, _⟩ => ⟨S8x2048, .f32⟩
  | .local _ .vmem, ⟨3, _⟩ => ⟨S8x2048, .f32⟩
  | .local _ .vmem, ⟨4, _⟩ => ⟨S64x2048, .f32⟩
  | .local _ .vmem, ⟨5, _⟩ => ⟨S1024x2048, .f32⟩
  | .local _ .vmem, ⟨6, _⟩ => ⟨S1024x2048, .f32⟩
  | .local _ .vmem, ⟨7, _⟩ => ⟨S1024, .f32⟩
  | .local _ .vmem, ⟨8, _⟩ => ⟨S1024, .f32⟩
  | .local _ .vmem, ⟨9, _⟩ => ⟨S64x1024, .f32⟩
  | .local _ .vmem, ⟨10, _⟩ => ⟨S64x1024, .f32⟩
  | .local _ .vmem, ⟨11, _⟩ => ⟨S64x4096, .f32⟩
  | .local _ .vmem, ⟨12, _⟩ => ⟨S512x4096, .f32⟩
  | .local _ .vmem, ⟨13, _⟩ => ⟨S512x4096, .f32⟩
  | .local _ .vmem, ⟨14, _⟩ => ⟨S512, .f32⟩
  | .local _ .vmem, ⟨15, _⟩ => ⟨S512, .f32⟩
  | .local _ .vmem, ⟨16, _⟩ => ⟨S64x512, .f32⟩
  | .local _ .vmem, ⟨17, _⟩ => ⟨S64x512, .f32⟩
  | .local _ .vmem, ⟨18, _⟩ => ⟨S8x4x2048, .f32⟩
  | .local _ .vmem, ⟨19, _⟩ => ⟨S8x4x2048, .f32⟩
  | .local _ .vmem, ⟨20, _⟩ => ⟨S8x2048x196, .f32⟩
  | .local _ .vmem, ⟨21, _⟩ => ⟨S8x2048x196, .f32⟩
  | .local _ .vmem, ⟨22, _⟩ => ⟨S8x4x196, .f32⟩
  | .local _ .vmem, ⟨23, _⟩ => ⟨S8x4x196, .f32⟩
  | _, _ => ⟨S64x2048x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x2048x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  ![arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S64x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S8x4x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8x2048x196 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8x4x196 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  shapeCasts_S64x2048x14x14_S64x2048x196 : S64x2048x14x14.ShapeCasts S64x2048x196
  inb_S8x2048x196_S8x2048x196_0_0_0 : ∀ a, (![0, 0, 0] : Fin 3 → Nat) a + S8x2048x196.size a ≤ S8x2048x196.size a
  h_S8x2048x196 : 0 < S8x2048x196.numel
  shapeCasts_S8x2048x196_S8x2048x196 : S8x2048x196.ShapeCasts S8x2048x196
  reduces_S8x2048x196_S8x2048 : S8x2048x196.Reduces [2] S8x2048
  inb_S8x2048_S8x2048_0_0 : ∀ a, (![0, 0] : Fin 2 → Nat) a + S8x2048.size a ≤ S8x2048.size a
  h_S8x2048 : 0 < S8x2048.numel
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S512x4096_S512x4096_0_0 : ∀ a, (![0, 0] : Fin 2 → Nat) a + S512x4096.size a ≤ S512x4096.size a
  h_S512x4096 : 0 < S512x4096.numel
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S64x512_S64x512_0_0 : ∀ a, (![0, 0] : Fin 2 → Nat) a + S64x512.size a ≤ S64x512.size a
  h_S64x512 : 0 < S64x512.numel
  shapeCasts_S64x8192_S64x4x2048 : S64x8192.ShapeCasts S64x4x2048
  inb_S8x4x2048_S8x4x2048_0_0_0 : ∀ a, (![0, 0, 0] : Fin 3 → Nat) a + S8x4x2048.size a ≤ S8x4x2048.size a
  h_S8x4x2048 : 0 < S8x4x2048.numel
  shapeCasts_S8x4x2048_S8x4x2048 : S8x4x2048.ShapeCasts S8x4x2048
  inb_S8x4x196_S8x4x196_0_0_0 : ∀ a, (![0, 0, 0] : Fin 3 → Nat) a + S8x4x196.size a ≤ S8x4x196.size a
  h_S8x4x196 : 0 < S8x4x196.numel
  shapeCasts_S64x4x196_S64x4x14x14 : S64x4x196.ShapeCasts S64x4x14x14
  dot_S64x2048_S1024x2048_S64x1024_1_1_0_0_n_n_wf : DotDims.WF S64x2048 S1024x2048 S64x1024 [1] [1] [0] [0] [] []
  dot_S64x4096_S512x4096_S64x512_1_1_0_0_n_n_wf : DotDims.WF S64x4096 S512x4096 S64x512 [1] [1] [0] [0] [] []
  dot_S8x4x2048_S8x2048x196_S8x4x196_2_1_1_2_0_0_wf : DotDims.WF S8x4x2048 S8x2048x196 S8x4x196 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x2048x196.size a ≤ S64x2048x196.size a
  hwx0_0 : ∀ i : grid0.Coords, EltTy.bits .f32 = 32 ∨ (Rect.block (s := S64x2048x196) S8x2048x196.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x2048.size a ≤ S64x2048.size a
  hwx0_1 : ∀ i : grid0.Coords, EltTy.bits .f32 = 32 ∨ (Rect.block (s := S64x2048) S8x2048.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x2048.size a ≤ S64x2048.size a
  hwx1_0 : ∀ i : grid1.Coords, EltTy.bits .f32 = 32 ∨ (Rect.block (s := S64x2048) S64x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S4096x2048.size a
  hwx1_1 : ∀ i : grid1.Coords, EltTy.bits .f32 = 32 ∨ (Rect.block (s := S4096x2048) S1024x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x1024.size a ≤ S64x4096.size a
  hwx1_3 : ∀ i : grid1.Coords, EltTy.bits .f32 = 32 ∨ (Rect.block (s := S64x4096) S64x1024.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x4096.size a ≤ S64x4096.size a
  hwx2_0 : ∀ i : grid2.Coords, EltTy.bits .f32 = 32 ∨ (Rect.block (s := S64x4096) S64x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S8192x4096.size a
  hwx2_1 : ∀ i : grid2.Coords, EltTy.bits .f32 = 32 ∨ (Rect.block (s := S8192x4096) S512x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S8192.size a
  hwx2_2 : ∀ i : grid2.Coords, EltTy.bits .f32 = 32 ∨ (Rect.block (s := S8192) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x512.size a ≤ S64x8192.size a
  hwx2_3 : ∀ i : grid2.Coords, EltTy.bits .f32 = 32 ∨ (Rect.block (s := S64x8192) S64x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8x4x2048.size a ≤ S64x4x2048.size a
  hwx3_0 : ∀ i : grid3.Coords, EltTy.bits .f32 = 32 ∨ (Rect.block (s := S64x4x2048) S8x4x2048.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8x2048x196.size a ≤ S64x2048x196.size a
  hwx3_1 : ∀ i : grid3.Coords, EltTy.bits .f32 = 32 ∨ (Rect.block (s := S64x2048x196) S8x2048x196.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x4x196.size a ≤ S64x4x196.size a
  hwx3_2 : ∀ i : grid3.Coords, EltTy.bits .f32 = 32 ∨ (Rect.block (s := S64x4x196) S8x4x196.size (cc3_transform_2 i) (hinb3_2 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf
def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf
def dot_S8x4x2048_S8x2048x196_S8x4x196_2_1_1_2_0_0 : DotDims S8x4x2048 S8x2048x196 S8x4x196 where
  lhsContracting := [2]
  rhsContracting := [1]
  lhsNonContracting := [1]
  rhsNonContracting := [2]
  lhsBatch := [0]
  rhsBatch := [0]
  wf := dot_S8x4x2048_S8x2048x196_S8x4x196_2_1_1_2_0_0_wf

abbrev win0_0 : Pipeline.Window sig grid0 :=
  Pipeline.Window.ofSpec (Memref.whole main_v0) S8x2048x196.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S64x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S64x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S64x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v4) S8x4x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S8x2048x196.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S8x4x196.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S64x2048x14x14 : Shape := ⟨4, ![64, 2048, 14, 14]⟩
abbrev S4096x2048 : Shape := ⟨2, ![4096, 2048]⟩
abbrev S4096 : Shape := ⟨1, ![4096]⟩
abbrev S8192x4096 : Shape := ⟨2, ![8192, 4096]⟩
abbrev S8192 : Shape := ⟨1, ![8192]⟩
abbrev S_ : Shape := ⟨0, ![]⟩
abbrev S64x2048 : Shape := ⟨2, ![64, 2048]⟩
abbrev S2048x4096 : Shape := ⟨2, ![2048, 4096]⟩
abbrev S64x4096 : Shape := ⟨2, ![64, 4096]⟩
abbrev S1x4096 : Shape := ⟨2, ![1, 4096]⟩
abbrev S4096x8192 : Shape := ⟨2, ![4096, 8192]⟩
abbrev S64x8192 : Shape := ⟨2, ![64, 8192]⟩
abbrev S1x8192 : Shape := ⟨2, ![1, 8192]⟩
abbrev S64x4x2048 : Shape := ⟨3, ![64, 4, 2048]⟩
abbrev S64x2048x196 : Shape := ⟨3, ![64, 2048, 196]⟩
abbrev S64x4x196 : Shape := ⟨3, ![64, 4, 196]⟩
abbrev S64x4x14x14 : Shape := ⟨4, ![64, 4, 14, 14]⟩

abbrev nBuf : Space → Nat
  | .hbm => 43
  | .vmem => 0
  | .smem => 0
  | _ => 0

abbrev bufTy : (tb : Table) → Fin (tcTables nBuf tb) → BufTy
  | .hbm, ⟨0, _⟩ => ⟨S64x2048x14x14, .f32⟩
  | .hbm, ⟨1, _⟩ => ⟨S4096x2048, .f32⟩
  | .hbm, ⟨2, _⟩ => ⟨S4096, .f32⟩
  | .hbm, ⟨3, _⟩ => ⟨S8192x4096, .f32⟩
  | .hbm, ⟨4, _⟩ => ⟨S8192, .f32⟩
  | .hbm, ⟨5, _⟩ => ⟨S_, .f32⟩
  | .hbm, ⟨6, _⟩ => ⟨S64x2048, .f32⟩
  | .hbm, ⟨7, _⟩ => ⟨S_, .f32⟩
  | .hbm, ⟨8, _⟩ => ⟨S64x2048, .f32⟩
  | .hbm, ⟨9, _⟩ => ⟨S64x2048, .f32⟩
  | .hbm, ⟨10, _⟩ => ⟨S2048x4096, .f32⟩
  | .hbm, ⟨11, _⟩ => ⟨S64x4096, .f32⟩
  | .hbm, ⟨12, _⟩ => ⟨S1x4096, .f32⟩
  | .hbm, ⟨13, _⟩ => ⟨S64x4096, .f32⟩
  | .hbm, ⟨14, _⟩ => ⟨S64x4096, .f32⟩
  | .hbm, ⟨15, _⟩ => ⟨S64x4096, .f32⟩
  | .hbm, ⟨16, _⟩ => ⟨S64x4096, .f32⟩
  | .hbm, ⟨17, _⟩ => ⟨S_, .f32⟩
  | .hbm, ⟨18, _⟩ => ⟨S64x4096, .f32⟩
  | .hbm, ⟨19, _⟩ => ⟨S64x4096, .f32⟩
  | .hbm, ⟨20, _⟩ => ⟨S_, .f32⟩
  | .hbm, ⟨21, _⟩ => ⟨S64x4096, .f32⟩
  | .hbm, ⟨22, _⟩ => ⟨S64x4096, .f32⟩
  | .hbm, ⟨23, _⟩ => ⟨S4096x8192, .f32⟩
  | .hbm, ⟨24, _⟩ => ⟨S64x8192, .f32⟩
  | .hbm, ⟨25, _⟩ => ⟨S1x8192, .f32⟩
  | .hbm, ⟨26, _⟩ => ⟨S64x8192, .f32⟩
  | .hbm, ⟨27, _⟩ => ⟨S64x8192, .f32⟩
  | .hbm, ⟨28, _⟩ => ⟨S64x8192, .f32⟩
  | .hbm, ⟨29, _⟩ => ⟨S64x8192, .f32⟩
  | .hbm, ⟨30, _⟩ => ⟨S_, .f32⟩
  | .hbm, ⟨31, _⟩ => ⟨S64x8192, .f32⟩
  | .hbm, ⟨32, _⟩ => ⟨S64x8192, .f32⟩
  | .hbm, ⟨33, _⟩ => ⟨S_, .f32⟩
  | .hbm, ⟨34, _⟩ => ⟨S64x8192, .f32⟩
  | .hbm, ⟨35, _⟩ => ⟨S64x8192, .f32⟩
  | .hbm, ⟨36, _⟩ => ⟨S64x4x2048, .f32⟩
  | .hbm, ⟨37, _⟩ => ⟨S64x2048x196, .f32⟩
  | .hbm, ⟨38, _⟩ => ⟨S64x4x196, .f32⟩
  | .hbm, ⟨39, _⟩ => ⟨S_, .f32⟩
  | .hbm, ⟨40, _⟩ => ⟨S64x4x196, .f32⟩
  | .hbm, ⟨41, _⟩ => ⟨S64x4x196, .f32⟩
  | .hbm, ⟨42, _⟩ => ⟨S64x4x14x14, .f32⟩
  | _, _ => ⟨S64x2048x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  reducesTo_S64x2048x14x14_S64x2048_d2_3 : S64x2048x14x14.ReducesTo [2, 3] S64x2048
  h_S_ : 0 < S_.numel
  bcast_S_S64x2048 : S_.BroadcastsInDim S64x2048 (![] : Fin 0 → Fin S64x2048.rank)
  transposes_S4096x2048_S2048x4096_1_0 : S4096x2048.Transposes [1, 0] S2048x4096
  bcast_S4096_S1x4096_1 : S4096.BroadcastsInDim S1x4096 (![1] : Fin 1 → Fin S1x4096.rank)
  bcast_S1x4096_S64x4096_0_1 : S1x4096.BroadcastsInDim S64x4096 (![0, 1] : Fin 2 → Fin S64x4096.rank)
  bcast_S_S64x4096 : S_.BroadcastsInDim S64x4096 (![] : Fin 0 → Fin S64x4096.rank)
  transposes_S8192x4096_S4096x8192_1_0 : S8192x4096.Transposes [1, 0] S4096x8192
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  bcast_S_S64x8192 : S_.BroadcastsInDim S64x8192 (![] : Fin 0 → Fin S64x8192.rank)
  shapeCasts_S64x8192_S64x4x2048 : S64x8192.ShapeCasts S64x4x2048
  shapeCasts_S64x2048x14x14_S64x2048x196 : S64x2048x14x14.ShapeCasts S64x2048x196
  bcast_S_S64x4x196 : S_.BroadcastsInDim S64x4x196 (![] : Fin 0 → Fin S64x4x196.rank)
  shapeCasts_S64x4x196_S64x4x14x14 : S64x4x196.ShapeCasts S64x4x14x14
  dot_S64x2048_S2048x4096_S64x4096_1_0_0_1_n_n_wf : DotDims.WF S64x2048 S2048x4096 S64x4096 [1] [0] [0] [1] [] []
  dot_S64x4096_S4096x8192_S64x8192_1_0_0_1_n_n_wf : DotDims.WF S64x4096 S4096x8192 S64x8192 [1] [0] [0] [1] [] []
  dot_S64x4x2048_S64x2048x196_S64x4x196_2_1_1_2_0_0_wf : DotDims.WF S64x4x2048 S64x2048x196 S64x4x196 [2] [1] [1] [2] [0] [0]

variable [Facts₀]

def dot_S64x2048_S2048x4096_S64x4096_1_0_0_1_n_n : DotDims S64x2048 S2048x4096 S64x4096 where
  lhsContracting := [1]
  rhsContracting := [0]
  lhsNonContracting := [0]
  rhsNonContracting := [1]
  lhsBatch := []
  rhsBatch := []
  wf := dot_S64x2048_S2048x4096_S64x4096_1_0_0_1_n_n_wf
def dot_S64x4096_S4096x8192_S64x8192_1_0_0_1_n_n : DotDims S64x4096 S4096x8192 S64x8192 where
  lhsContracting := [1]
  rhsContracting := [0]
  lhsNonContracting := [0]
  rhsNonContracting := [1]
  lhsBatch := []
  rhsBatch := []
  wf := dot_S64x4096_S4096x8192_S64x8192_1_0_0_1_n_n_wf
def dot_S64x4x2048_S64x2048x196_S64x4x196_2_1_1_2_0_0 : DotDims S64x4x2048 S64x2048x196 S64x4x196 where
  lhsContracting := [2]
  rhsContracting := [1]
  lhsNonContracting := [1]
  rhsNonContracting := [2]
  lhsBatch := [0]
  rhsBatch := [0]
  wf := dot_S64x4x2048_S64x2048x196_S64x4x196_2_1_1_2_0_0_wf

class Facts : Prop extends Facts₀ where

variable [Facts]
-- ==== Proof.KernelRun.lean ====
/-
  The idealized kernel's run with its two results named.

  The program is four pipelined regions among three stretches of host operations (a reshape before the first region, a
  reshape between the third and the fourth, a reshape after the fourth). Every weakly fair execution from a memory with
  zero counters terminates without a fault, and in the final state each buffer outside the regions' scoped storage holds
  what the fold of the segments leaves there: the contents `W7` obtained from the launch memory by applying the host
  stretches and, at each region's exit, replacing the region's arrays by what its write-backs leave. Read at the two
  result buffers and at the five argument buffers (which no segment writes), this gives the statement below; the values
  of `W7` at the two results are computed elsewhere.
-/
import proofs.«176148_j54735063220846_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the two result buffers at the fold's
    final contents and the five argument buffers as launched. -/
theorem run_results : θ_run defs (onTc (τ := τ) (main (F := F))) ⟨m, fun _ => 0, ρ⟩ (fun r => ∀ c : Dev nD,
      r.2.mem ((c.tc : Thread nD τ).loc main_v4) = W7 m ρ c (Proc.devRef .tc main_v4)
      ∧ r.2.mem ((c.tc : Thread nD τ).loc main_v6) = W7 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v4 (by decide)),
       h c _ (mem_uc main_v6 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Run

end
-- ==== Proof.Gating.lean ====
/-
  The function both programs compute, stated once over the extended reals.

  A squeeze-and-excite style gate followed by a gated average over channels. From an array `xr` of shape
  `[B, C, S]` (the input with its two spatial axes merged):
    * `pool`   — the mean over the last axis, `g (b, c) = (∑ s, xr (b, c, s)) / 196`;
    * `layer`  — a dense layer with a logistic activation, `(p, n) ↦ σ (∑ a, x (p, a) · w (n, a) + bias n)`, the weight
                 matrix contracted along its second axis, where `σ z = 1 / (1 + e^(-z))` with the conventions of the
                 extended reals at the infinities;
    * `wsum`   — for each batch entry, gate row and position the gate-weighted sum over channels, scaled by `2⁻¹¹`:
                 `(b, p, s) ↦ (∑ c, w (b, p, c) · xr (b, c, s)) · 2⁻¹¹`.
  Each is given first at explicit coordinates (`…At`) and then as a function of an array index. The divisor `196` and the
  scale `2⁻¹¹` are kept as the binary words the programs spell; the only words read as numbers are `1`, `2048` and `2⁻¹¹`,
  for the one law that joins a product with `2⁻¹¹` to a quotient by `2048`, which holds at every extended real.
-/
import Idealize.ShloMosaic.PureOps.Ideal
import Idealize.ShloMosaic.PureOps.Ideal.Laws
import Idealize.ShloMosaic.Lib.ValueIdx

noncomputable section

open scoped BigOperators

namespace Cert.Gating

open Idealize.ShloMosaic Idealize.ShloMosaic.ValueIdx

/-! ## The three stages at explicit coordinates -/

/-- The mean of row `(b, c)` over the last axis: the row's sum divided by the word for `196`. -/
def poolAt {B C S : ℕ} (xr : (⟨3, ![B, C, S]⟩ : Shape).Idx → EReal) (b : Fin B) (c : Fin C) : EReal :=
  Ideal.div (∑ s : Fin S, xr (ix3 b c s)) (Ideal.ofBits .f32 0x43440000#32)

/-- One entry of a dense layer with logistic activation: row `p` of `x` against row `n` of `w`, plus the bias at `n`. -/
def layerAt {R K N : ℕ} (x : (⟨2, ![R, K]⟩ : Shape).Idx → EReal) (w : (⟨2, ![N, K]⟩ : Shape).Idx → EReal)
    (bias : (⟨1, ![N]⟩ : Shape).Idx → EReal) (p : Fin R) (n : Fin N) : EReal :=
  Ideal.logistic ((∑ a : Fin K, x (ix2 p a) * w (ix2 n a)) + bias (ix1 n))

/-- One entry of the gated channel sum, scaled by the word for `2⁻¹¹`. -/
def wsumAt {B P C S : ℕ} (w : (⟨3, ![B, P, C]⟩ : Shape).Idx → EReal) (xr : (⟨3, ![B, C, S]⟩ : Shape).Idx → EReal)
    (b : Fin B) (p : Fin P) (s : Fin S) : EReal :=
  (∑ c : Fin C, w (ix3 b p c) * xr (ix3 b c s)) * Ideal.ofBits .f32 0x3A000000#32

/-! ## The same as functions of an array index -/

def pool {B C S : ℕ} (xr : (⟨3, ![B, C, S]⟩ : Shape).Idx → EReal) : (⟨2, ![B, C]⟩ : Shape).Idx → EReal :=
  fun i => poolAt xr (i 0) (i 1)

def layer {R K N : ℕ} (x : (⟨2, ![R, K]⟩ : Shape).Idx → EReal) (w : (⟨2, ![N, K]⟩ : Shape).Idx → EReal)
    (bias : (⟨1, ![N]⟩ : Shape).Idx → EReal) : (⟨2, ![R, N]⟩ : Shape).Idx → EReal :=
  fun i => layerAt x w bias (i 0) (i 1)

def wsum {B P C S : ℕ} (w : (⟨3, ![B, P, C]⟩ : Shape).Idx → EReal) (xr : (⟨3, ![B, C, S]⟩ : Shape).Idx → EReal) :
    (⟨3, ![B, P, S]⟩ : Shape).Idx → EReal :=
  fun i => wsumAt w xr (i 0) (i 1) (i 2)

theorem pool_ix2 {B C S : ℕ} (xr : (⟨3, ![B, C, S]⟩ : Shape).Idx → EReal) (b : Fin B) (c : Fin C) :
    pool xr (ix2 b c) = poolAt xr b c := rfl

theorem layer_ix2 {R K N : ℕ} (x : (⟨2, ![R, K]⟩ : Shape).Idx → EReal) (w : (⟨2, ![N, K]⟩ : Shape).Idx → EReal)
    (bias : (⟨1, ![N]⟩ : Shape).Idx → EReal) (p : Fin R) (n : Fin N) :
    layer x w bias (ix2 p n) = layerAt x w bias p n := rfl

theorem wsum_ix3 {B P C S : ℕ} (w : (⟨3, ![B, P, C]⟩ : Shape).Idx → EReal) (xr : (⟨3, ![B, C, S]⟩ : Shape).Idx → EReal)
    (b : Fin B) (p : Fin P) (s : Fin S) : wsum w xr (ix3 b p s) = wsumAt w xr b p s := rfl

/-! ## The words read as numbers -/

/-- The word `0x3F800000` is the number one. -/
theorem word_one : Ideal.ofBits .f32 0x3F800000#32 = 1 := by
  simp [Ideal.ofBits, Ideal.ieee, -EReal.coe_mul]; norm_num

/-- The word `0x45000000` is the number `2048`. -/
theorem word_2048 : Ideal.ofBits .f32 0x45000000#32 = ((2048 : ℝ) : EReal) := by
  simp [Ideal.ofBits, Ideal.ieee, -EReal.coe_mul]; norm_num

/-- The word `0x3A000000` is the number `1 / 2048 = 2⁻¹¹`. -/
theorem word_inv_2048 : Ideal.ofBits .f32 0x3A000000#32 = ((1 / 2048 : ℝ) : EReal) := by
  simp [Ideal.ofBits, Ideal.ieee, -EReal.coe_mul]; norm_num

/-- A quotient by the word for `2048` is the product with the word for `2⁻¹¹`, at every extended real. -/
theorem div_2048 (z : EReal) :
    Ideal.div z (Ideal.ofBits .f32 0x45000000#32) = z * Ideal.ofBits .f32 0x3A000000#32 := by
  rw [word_2048, word_inv_2048, Ideal.div_coe (by norm_num : (2048 : ℝ) ≠ 0)]

/-- The logistic function is the quotient the host spells, with its two ones as the word for one. -/
theorem logistic_spelt (z : EReal) :
    Ideal.div (Ideal.ofBits .f32 0x3F800000#32) (Ideal.ofBits .f32 0x3F800000#32 + Ideal.exp (-z)) = Ideal.logistic z := by
  rw [word_one]; rfl

end Cert.Gating

end
-- ==== Proof.LibVectorReads.lean ====
/-
  A few vector layout operations and sums read at an entry, in exact arithmetic, for any extents.

  * A bias vector of length `N` cast to one row `[1, N]` and repeated over `R` rows reads, at `(r, n)`, the vector at `n`.
  * A sum over the last axis of a rank-3 array reads, at `(r, m)`, the sum over the last coordinate; the same for a
    rank-2 array at `r`.
  * An `[A, B]` array cast to `[A, 1, B]` reads, at `(r, u, k)`, the operand at `(r, k)`.
  * A `[K, 1]` column cast to a vector of length `K` reads, at `k`, the column at `(k, 0)`.
  * An `[R, 1, C]` array repeated along the middle axis to `[R, n, C]` reads, at `(r, m, k)`, the operand at `(r, 0, k)`.
-/
import Idealize.ShloMosaic.Lib.ValueLayout
import Idealize.ShloMosaic.Lib.Pipeline.Value
import Idealize.ShloMosaic.PureOps.Ideal.Laws

noncomputable section

open scoped BigOperators

namespace Cert.LibVectorReads

open Idealize.ShloMosaic Idealize.ShloMosaic.ValueIdx

/-- A bias vector cast to one row and repeated over `R` rows reads, at `(r, n)`, the vector at `n`. -/
theorem bias_rows_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- The sum over the last axis of an `[A, B, C]` array, at `(r, m)`. -/
theorem sum_last3_apply {A B C : ℕ} (src : FVec Ideal ⟨3, ![A, B, C]⟩ .f32)
    (h : (⟨3, ![A, B, C]⟩ : Shape).Reduces [(2 : Fin 3)] ⟨2, ![A, B]⟩) (hφ : FKind.Formats .f32)
    (hacc : (0x00000000#32 : BitVec 32) = FKind.add.neutral .f32 hφ) (r : Fin A) (m : Fin B) :
    multiReduction .add [(2 : Fin 3)] ⟨2, ![A, B]⟩ src 0x00000000#32 h hφ hacc (ix2 r m)
      = ∑ k : Fin C, src (ix3 r m k) := by
  refine (Ideal.multiReduction_add_single src _ h hφ hacc (ix2 r m)).trans ?_
  refine Finset.sum_congr rfl fun k _ => congrArg src ?_
  funext c
  apply Fin.ext
  match c with
  | ⟨0, _⟩ => rfl
  | ⟨1, _⟩ => rfl
  | ⟨2, _⟩ => rfl

/-- The sum over the last axis of an `[A, B]` array, at `r`. -/
theorem sum_last2_apply {A B : ℕ} (src : FVec Ideal ⟨2, ![A, B]⟩ .f32)
    (h : (⟨2, ![A, B]⟩ : Shape).Reduces [(1 : Fin 2)] ⟨1, ![A]⟩) (hφ : FKind.Formats .f32)
    (hacc : (0x00000000#32 : BitVec 32) = FKind.add.neutral .f32 hφ) (r : Fin A) :
    multiReduction .add [(1 : Fin 2)] ⟨1, ![A]⟩ src 0x00000000#32 h hφ hacc (ix1 r)
      = ∑ k : Fin B, src (ix2 r k) := by
  refine (Ideal.multiReduction_add_single src _ h hφ hacc (ix1 r)).trans ?_
  refine Finset.sum_congr rfl fun k _ => congrArg src ?_
  funext c
  apply Fin.ext
  match c with
  | ⟨0, _⟩ => rfl
  | ⟨1, _⟩ => rfl

/-- An `[A, B]` array cast to `[A, 1, B]` reads, at `(r, u, k)`, the operand at `(r, k)`. -/
theorem shapeCast_ab_a1b_apply {α : Type} {A B : ℕ} (x : (⟨2, ![A, B]⟩ : Shape).Idx → α)
    (h : (⟨2, ![A, B]⟩ : Shape).ShapeCasts ⟨3, ![A, 1, B]⟩) (r : Fin A) (u : Fin 1) (k : Fin B) :
    shapeCast ⟨3, ![A, 1, B]⟩ x h (ix3 r u k) = x (ix2 r k) :=
  shapeCast_apply x h _ _ (by
    have hu : u.val = 0 := by omega
    rw [Shape.rowMajor_val_two, Shape.rowMajor_val_three]
    show r.val * B + k.val = (r.val * 1 + u.val) * B + k.val
    rw [hu, Nat.mul_one, Nat.add_zero])

/-- A `[K, 1]` column cast to a vector reads, at `k`, the column at `(k, 0)`. -/
theorem shapeCast_a1_a_apply {α : Type} {K : ℕ} (x : (⟨2, ![K, 1]⟩ : Shape).Idx → α)
    (h : (⟨2, ![K, 1]⟩ : Shape).ShapeCasts ⟨1, ![K]⟩) (k : Fin K) :
    shapeCast ⟨1, ![K]⟩ x h (ix1 k) = x (ix2 k (0 : Fin 1)) :=
  shapeCast_apply x h _ _ (by
    rw [Shape.rowMajor_val_two, Shape.rowMajor_val_one]
    show k.val * 1 + 0 = k.val
    omega)

/-- An `[R, 1, C]` array repeated along the middle axis reads, at `(r, m, k)`, the operand at `(r, 0, k)`. -/
theorem repeat_mid_apply {α : Type} {R n C : ℕ} (v : (⟨3, ![R, 1, C]⟩ : Shape).Idx → α)
    (h : (⟨3, ![R, 1, C]⟩ : Shape).Broadcasts ⟨3, ![R, n, C]⟩) (r : Fin R) (m : Fin n) (k : Fin C) :
    broadcastTo ⟨3, ![R, n, C]⟩ v h (ix3 r m k) = v (ix3 r (0 : Fin 1) k) := by
  refine broadcastTo_apply v h (ix3 r m k) (ix3 r (0 : Fin 1) k) fun ax => ?_
  match ax with
  | ⟨0, _⟩ =>
    show r.val = if R = 1 then 0 else r.val
    split
    · have := r.isLt; omega
    · rfl
  | ⟨1, _⟩ => rfl
  | ⟨2, _⟩ =>
    show k.val = if C = 1 then 0 else k.val
    split
    · have := k.isLt; omega
    · rfl

end Cert.LibVectorReads

end
-- ==== Proof.Pooled.lean ====
/-
  The first region: the mean over positions.

  The region's grid has eight points. At point `t` its input window holds the block of eight batch entries
  `xr[8t .. 8t+8, :, :]` of the `[64, 2048, 196]` array and its output window the block `g[8t .. 8t+8, :]` of the
  `[64, 2048]` result. The body sums each row of the input block over its last axis, from zero, and divides by the word
  for `196`; so the entry `(b, c)` of the block written back at point `t` is the mean of row `(8t + b, c)` of the array,
  which is the specification's `pool` at the array index the block entry sits at. The eight output blocks tile the
  result, so the array ends holding `pool` of the input array as the region found it.
-/
import proofs.«176148_j54735063220846_1_alg».proof.Proof.Gen.KernelIdeal.Frame
import proofs.«176148_j54735063220846_1_alg».proof.Proof.Gating
import proofs.«176148_j54735063220846_1_alg».proof.Proof.LibVectorReads
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

theorem offsets3 : (![0, 0, 0] : Fin 3 → Nat) = fun _ => 0 := funext fun a => by fin_cases a <;> rfl
theorem offsets2 : (![0, 0] : Fin 2 → Nat) = fun _ => 0 := funext fun a => by fin_cases a <;> rfl

/-- The body's stored value at the entry `(p, q)` of its block: the sum of row `(p, q)` of the loaded block over the
    last axis, divided by the word for `196`. -/
theorem pool_block (x0 : Vec Ideal S8x2048x196 .f32) (p : Fin 8) (q : Fin 2048) :
    k0_pay1 (F := Ideal) x0 (ix2 p q)
      = Ideal.div (∑ s : Fin 196, x0 (ix3 p q s)) (Ideal.ofBits .f32 0x43440000#32) := by
  unfold k0_pay1
  show Ideal.div (multiReduction (F := Ideal) .add [2] S8x2048 (shapeCast S8x2048x196 x0 shapeCasts_S8x2048x196_S8x2048x196)
      0x00000000#32 reduces_S8x2048x196_S8x2048 (.inl rfl) rfl (ix2 p q)) (Ideal.ofBits .f32 0x43440000#32) = _
  refine congrArg (fun z => Ideal.div z (Ideal.ofBits .f32 0x43440000#32)) ?_
  refine (Cert.LibVectorReads.sum_last3_apply (shapeCast S8x2048x196 x0 shapeCasts_S8x2048x196_S8x2048x196)
    reduces_S8x2048x196_S8x2048 (.inl rfl) rfl p q).trans ?_
  rw [shapeCast_self]

/-- The two windows' index maps over the grid: both move along the batch axis with the point and sit at block zero on
    the other axes; the batch block index is at most seven. -/
theorem pool_maps : ∀ t : Fin cfg0.N, win0_0.index t (0 : Fin 3) = win0_1.index t (0 : Fin 2)
    ∧ win0_0.index t (1 : Fin 3) = 0 ∧ win0_0.index t (2 : Fin 3) = 0
    ∧ win0_1.index t (1 : Fin 2) = 0 ∧ win0_1.index t (0 : Fin 2) ≤ 7 :=
  (by decide +kernel : ∀ t : Fin grid0.N, _)

/-- Every batch block of the result is some point's. -/
theorem pool_onto : ∀ q0 : Fin 8, ∃ t : Fin cfg0.N, win0_1.index t = ![q0.val, 0] :=
  (by decide +kernel : ∀ q0 : Fin 8, ∃ t : Fin grid0.N, win0_1.index t = ![q0.val, 0])

variable (V : (c : Dev nD) → (b : Ref sig .tc) → Buf (Elt Ideal) ((c : Thread nD τ).loc b))

/-- What point `t` writes back is block `t` of `pool` of the input array as the region finds it. -/
theorem pool_flushed (c : Dev nD) (t : Fin cfg0.N) :
    (dat0 (F := Ideal) V c).flushed 1 t
      = ((cfg0.win 1).blk t).view.read (Elt Ideal) (Cert.Gating.pool (V c main_v0)) := by
  show (cfg0.win 1).cut (grid0.coords t) ((dat0 (F := Ideal) V c).after 1 t) = _
  rw [after0_1]
  unfold out0_1
  rw [View.canon_unit_zero offsets2]
  simp only [View.ld_unit_zero (S := S8x2048x196) offsets3]
  obtain ⟨e0, e1, e2, e3, e4⟩ := pool_maps t
  funext j
  obtain ⟨p, q, rfl⟩ : ∃ (p : Fin 8) (q : Fin 2048), j = ix2 p q := ⟨j 0, j 1, eq_ix2 j⟩
  show k0_pay1 (F := Ideal) (iblk0 V c 0 t) (ix2 p q)
    = Cert.Gating.pool (V c main_v0) (((cfg0.win 1).blk t).view.emb (ix2 p q))
  refine (pool_block (iblk0 V c 0 t) p q).trans ?_
  have hb : win0_1.index t (0 : Fin 2) * 8 + p.val < 64 := by have := p.isLt; omega
  have hI : ((cfg0.win 1).blk t).view.emb (ix2 p q)
      = ix2 (⟨win0_1.index t (0 : Fin 2) * 8 + p.val, hb⟩ : Fin 64) q := by
    funext a; apply Fin.ext
    match a with
    | ⟨0, _⟩ => show win0_1.index t (0 : Fin 2) * 8 + 1 * p.val = win0_1.index t (0 : Fin 2) * 8 + p.val; omega
    | ⟨1, _⟩ => show win0_1.index t (1 : Fin 2) * 2048 + 1 * q.val = q.val; omega
  rw [hI, Cert.Gating.pool_ix2]
  unfold Cert.Gating.poolAt
  refine congrArg (fun z => Ideal.div z (Ideal.ofBits .f32 0x43440000#32)) (Finset.sum_congr rfl fun s _ => ?_)
  show V c main_v0 (((cfg0.win 0).blk t).view.emb (ix3 p q s))
    = V c main_v0 (ix3 (⟨win0_1.index t (0 : Fin 2) * 8 + p.val, hb⟩ : Fin 64) q s)
  refine congrArg (V c main_v0) ?_
  funext a; apply Fin.ext
  match a with
  | ⟨0, _⟩ => show win0_0.index t (0 : Fin 3) * 8 + 1 * p.val = win0_1.index t (0 : Fin 2) * 8 + p.val; omega
  | ⟨1, _⟩ => show win0_0.index t (1 : Fin 3) * 2048 + 1 * q.val = q.val; omega
  | ⟨2, _⟩ => show win0_0.index t (2 : Fin 3) * 196 + 1 * s.val = s.val; omega

/-- An index of the result is in point `t`'s output block iff each coordinate is in the block's range on its axis. -/
theorem pool_mem (t : Fin cfg0.N) (i : S64x2048.Idx) :
    i ∈ ((cfg0.win 1).blk t).view.set ↔ ∀ a : Fin 2, win0_1.index t a * S8x2048.size a ≤ (i a).val
      ∧ (i a).val < win0_1.index t a * S8x2048.size a + S8x2048.size a := by
  show i ∈ ((View.whole main_v1).slice (win0_1.rect t)).set ↔ _
  rw [View.set_slice_whole, Rect.mem_set_unit]
  exact Iff.rfl

/-- The output blocks tile the result: the batch entry `b` is in the block of point `b / 8`. -/
theorem pool_cover (i : S64x2048.Idx) :
    ∃ t : Fin cfg0.N, (cfg0.win 1).flush t = true ∧ i ∈ ((cfg0.win 1).blk t).view.set := by
  have hi0 : (i 0).val < 64 := (i 0).isLt
  have hi1 : (i 1).val < 2048 := (i 1).isLt
  obtain ⟨t, ht⟩ := pool_onto ⟨(i 0).val / 8, by omega⟩
  have q0 : win0_1.index t (0 : Fin 2) = (i 0).val / 8 := congrFun ht 0
  have q1 : win0_1.index t (1 : Fin 2) = 0 := congrFun ht 1
  refine ⟨t, flush0_1 t, ?_⟩
  rw [pool_mem]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 2048 ≤ (i 1).val ∧ (i 1).val < win0_1.index t (1 : Fin 2) * 2048 + 2048; omega

/-- The region's result array ends holding `pool` of the input array as the region found it. -/
theorem pooled (c : Dev nD) :
    (dat0 (F := Ideal) V c).arrAt 1 cfg0.N = Cert.Gating.pool (V c main_v0) :=
  (dat0 (F := Ideal) V c).arrAt_eq_of_cover 1 _ (fun t _ => pool_flushed V c t) pool_cover

end Cert.KernelIdeal.Regions

end
-- ==== Proof.LibRowDot.lean ====
/-
  A matrix product whose right factor is contracted along its SECOND axis: `x · wᵀ` without a separate transposition.

  A matrix unit fed an `R × K` left factor and an `N × K` right factor, with dimension numbers that contract the
  second axis of both (`[1] × [1]`, nothing batched), accumulated into the zero matrix and read at exact arithmetic, is
  at the entry `(p, n)` the sum over the contracted coordinate `a : Fin K` of `l (p, a) * r (n, a)`; accumulated into any
  matrix `acc` it is `acc (p, n)` plus that sum. The four hypotheses say the dimension numbers are the ones described:
  each factor's index takes its row from the output index (the left factor from the output's row, the right factor
  from the output's column) and its column from the contraction index. Any extents, any float formats of the factors.
-/
import Idealize.ShloMosaic.PureOps.Ideal.Laws
import Idealize.ShloMosaic.Lib.ValueIdx

noncomputable section

open scoped BigOperators

namespace Cert.LibRowDot

open Idealize.ShloMosaic Idealize.ShloMosaic.ValueIdx

/-- `x · wᵀ` accumulated into `acc`, read at `(p, n)` in exact arithmetic: `acc (p, n) + ∑ a, l (p, a) * r (n, a)`. -/
theorem matmul_rows {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (acc : FVec Ideal ⟨2, ![R, N]⟩ .f32) (p : Fin R) (n : Fin N) :
    FloatOps.matmul D prec l r acc (ix2 p n) = acc (ix2 p n) + ∑ a : Fin K, l (ix2 p a) * r (ix2 n a) := by
  rw [Ideal.matmul_apply, ← Equiv.sum_comp (contrEquiv1 D K hr hs).symm]
  refine congrArg (acc (ix2 p n) + ·) (Finset.sum_congr rfl fun k _ => ?_)
  have hk := contrEquiv1_symm_val D K hr hs k
  have el : D.lhsIdx (ix2 p n) ((contrEquiv1 D K hr hs).symm k) = ix2 p k := funext fun a => Fin.ext (by
    match a with
    | ⟨0, _⟩ => exact hl0 _ _
    | ⟨1, _⟩ => exact (hl1 _ _).trans hk)
  have er : D.rhsIdx (ix2 p n) ((contrEquiv1 D K hr hs).symm k) = ix2 n k := funext fun a => Fin.ext (by
    match a with
    | ⟨0, _⟩ => exact hr0 _ _
    | ⟨1, _⟩ => exact (hr1 _ _).trans hk)
  rw [el, er]

/-- The same accumulated into the zero matrix: the sum alone. -/
theorem matmul_rows_zero {R K N : Nat} {φ₁ φ₂ : FTy}
    (D : DotDims ⟨2, ![R, K]⟩ ⟨2, ![N, K]⟩ ⟨2, ![R, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (prec : Option ContractPrecision) (l : FVec Ideal ⟨2, ![R, K]⟩ φ₁) (r : FVec Ideal ⟨2, ![N, K]⟩ φ₂)
    (p : Fin R) (n : Fin N) :
    FloatOps.matmul D prec l r (constant ⟨2, ![R, N]⟩ .f32 0x00000000#32) (ix2 p n)
      = ∑ a : Fin K, l (ix2 p a) * r (ix2 n a) := by
  rw [matmul_rows D hr hs hl0 hl1 hr0 hr1 prec l r _ p n]
  show Ideal.ofBits .f32 0x00000000#32 + _ = _
  rw [Ideal.ofBits_zero_f32, zero_add]

end Cert.LibRowDot

end
-- ==== Proof.HiddenLayer.lean ====
/-
  The first dense layer of the gate, read off the kernel's region.

  The region computes, block of 1024 output columns by block, the array
    `(p, n) ↦ σ (∑ a, x (p, a) · w (n, a) + bias n)`,   `σ z = 1 / (1 + e^(-z))`,
  from a `64 × 2048` left factor `x`, a `4096 × 2048` weight matrix `w` contracted along its second axis, and a
  bias of length `4096`. At each of its 4 grid points the body sees the whole of `x`, the 1024 rows of `w` and the
  1024 bias entries numbered by the point, and writes the 1024 columns of the result with the same numbers. The proof
  reads the body's one stored value at an entry `(p, q)` of its block, identifies each block read with a read of the
  array (row or entry `block number × 1024 + q`), and lets the 4 column blocks, which tile the `64 × 4096` result, fill
  the array.
-/
import proofs.«176148_j54735063220846_1_alg».proof.Proof.Gen.KernelIdeal.Frame
import proofs.«176148_j54735063220846_1_alg».proof.Proof.Gating
import proofs.«176148_j54735063220846_1_alg».proof.Proof.LibRowDot
import proofs.«176148_j54735063220846_1_alg».proof.Proof.LibVectorReads
import Idealize.ShloMosaic.Lib.Pipeline.Value
import Idealize.ShloMosaic.Lib.ValueIdx
import Idealize.ShloMosaic.PureOps.Ideal.Laws

noncomputable section
namespace Cert.KernelIdeal.Regions
open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

namespace HiddenLayer
open Idealize.ShloMosaic.ValueIdx
open scoped BigOperators

/-! ## The matrix unit's dimension numbers: the second axis of both factors is contracted

Each factor's index takes its first coordinate from the output index (the left factor from the output's row, the right
factor from the output's column) and its second coordinate from the contraction index. -/

theorem dot_l0 (i : S64x1024.Idx) (k : dot_S64x2048_S1024x2048_S64x1024_1_1_0_0_n_n.contr.Idx) :
    (dot_S64x2048_S1024x2048_S64x1024_1_1_0_0_n_n.lhsIdx i k 0).val = (i 0).val := by
  unfold DotDims.lhsIdx
  rw [dif_neg (show ¬(0 : Fin S64x2048.rank) ∈ dot_S64x2048_S1024x2048_S64x1024_1_1_0_0_n_n.lhsBatch by decide),
    dif_pos (show (0 : Fin S64x2048.rank) ∈ dot_S64x2048_S1024x2048_S64x1024_1_1_0_0_n_n.lhsNonContracting by decide)]
  rfl

theorem dot_l1 (i : S64x1024.Idx) (k : dot_S64x2048_S1024x2048_S64x1024_1_1_0_0_n_n.contr.Idx) :
    (dot_S64x2048_S1024x2048_S64x1024_1_1_0_0_n_n.lhsIdx i k 1).val = (k ⟨0, by decide⟩).val :=
  dot_S64x2048_S1024x2048_S64x1024_1_1_0_0_n_n.lhsIdx_val_of_single rfl i k

theorem dot_r0 (i : S64x1024.Idx) (k : dot_S64x2048_S1024x2048_S64x1024_1_1_0_0_n_n.contr.Idx) :
    (dot_S64x2048_S1024x2048_S64x1024_1_1_0_0_n_n.rhsIdx i k 0).val = (i 1).val := by
  unfold DotDims.rhsIdx
  rw [dif_neg (show ¬(0 : Fin S1024x2048.rank) ∈ dot_S64x2048_S1024x2048_S64x1024_1_1_0_0_n_n.rhsBatch by decide),
    dif_pos (show (0 : Fin S1024x2048.rank) ∈ dot_S64x2048_S1024x2048_S64x1024_1_1_0_0_n_n.rhsNonContracting by decide)]
  rfl

theorem dot_r1 (i : S64x1024.Idx) (k : dot_S64x2048_S1024x2048_S64x1024_1_1_0_0_n_n.contr.Idx) :
    (dot_S64x2048_S1024x2048_S64x1024_1_1_0_0_n_n.rhsIdx i k 1).val = (k ⟨0, by decide⟩).val :=
  dot_S64x2048_S1024x2048_S64x1024_1_1_0_0_n_n.rhsIdx_val_of_single rfl i k

/-! ## The body at one entry of its block -/

/-- From a left factor `x0`, a block `x1` of 1024 rows of the weight matrix and the matching block `x2` of the bias, the
    body's value at `(p, q)` is the logistic function of row `p` of `x0` against row `q` of `x1`, plus `x2` at `q`. The
    changes of float format are the identity on extended reals, and the product is accumulated into the zero matrix. -/
theorem pay_at (x0 : Vec Ideal S64x2048 .f32) (x1 : Vec Ideal S1024x2048 .f32) (x2 : Vec Ideal S1024 .f32)
    (p : Fin 64) (q : Fin 1024) :
    k1_pay1 x0 x1 x2 (ix2 p q)
      = Ideal.logistic ((∑ a : Fin 2048, x0 (ix2 p a) * x1 (ix2 q a)) + x2 (ix1 q)) := by
  unfold k1_pay1
  refine congrArg Ideal.logistic (congrArg₂ (· + ·) ?_ ?_)
  · refine (Cert.LibRowDot.matmul_rows_zero dot_S64x2048_S1024x2048_S64x1024_1_1_0_0_n_n rfl rfl
      dot_l0 dot_l1 dot_r0 dot_r1 none _ _ p q).trans ?_
    refine Finset.sum_congr rfl fun a _ => ?_
    refine congrArg₂ (· * ·) ?_ rfl
    exact congrFun (shapeCast_self x0 shapeCasts_S64x2048_S64x2048) (ix2 p a)
  · exact Cert.LibVectorReads.bias_rows_apply x2 shapeCasts_S1024_S1x1024 broadcasts_S1x1024_S64x1024 p q

/-! ## Where each window's block sits, at every grid point

The left factor's window is the whole array at every point; the weight window is the block of 1024 rows, the bias
window the block of 1024 entries and the output window the block of 1024 columns, all three at the same block number,
which runs over `0, …, 3`. -/

theorem hz2 : (![0, 0] : Fin 2 → Nat) = fun _ => 0 := funext fun a => by fin_cases a <;> rfl
theorem hz1 : (![0] : Fin 1 → Nat) = fun _ => 0 := funext fun a => by fin_cases a; rfl

theorem idx_facts : ∀ t : Fin cfg1.N,
    win1_0.index t (0 : Fin 2) = 0 ∧ win1_0.index t (1 : Fin 2) = 0
    ∧ win1_1.index t (0 : Fin 2) = win1_3.index t (1 : Fin 2) ∧ win1_1.index t (1 : Fin 2) = 0
    ∧ win1_2.index t (0 : Fin 1) = win1_3.index t (1 : Fin 2)
    ∧ win1_3.index t (0 : Fin 2) = 0 ∧ win1_3.index t (1 : Fin 2) ≤ 3 :=
  (by decide +kernel : ∀ t : Fin grid1.N, _)

/-- Every column block is some point's. -/
theorem idx_onto : ∀ q : Fin 4, ∃ t : Fin cfg1.N, win1_3.index t (1 : Fin 2) = q.val :=
  (by decide +kernel : ∀ q : Fin 4, ∃ t : Fin grid1.N, win1_3.index t (1 : Fin 2) = q.val)

/-- The left factor's block at any point, at `(p, a)`, is the array at `(p, a)`. -/
theorem read_left (c : Dev nD) (t : Fin cfg1.N) (p : Fin 64) (a : Fin 2048) :
    iblk1 V c 0 t (ix2 p a) = V c main_v1 (ix2 p a) := by
  obtain ⟨e0, e1, -⟩ := idx_facts t
  show V c main_v1 (((cfg1.win 0).blk t).view.emb (ix2 p a)) = V c main_v1 (ix2 p a)
  refine congrArg (V c main_v1) ?_
  funext d; apply Fin.ext
  match d with
  | ⟨0, _⟩ => show win1_0.index t (0 : Fin 2) * 64 + 1 * p.val = p.val; omega
  | ⟨1, _⟩ => show win1_0.index t (1 : Fin 2) * 2048 + 1 * a.val = a.val; omega

/-- The weight block at point `t`, at `(q, a)`, is the weight matrix at row `block number × 1024 + q`. -/
theorem read_weight (c : Dev nD) (t : Fin cfg1.N) (q : Fin 1024) (a : Fin 2048)
    (hn : win1_3.index t (1 : Fin 2) * 1024 + q.val < 4096) :
    iblk1 V c 1 t (ix2 q a) = V c main_arg1 (ix2 (⟨win1_3.index t (1 : Fin 2) * 1024 + q.val, hn⟩ : Fin 4096) a) := by
  obtain ⟨-, -, e2, e3, -⟩ := idx_facts t
  show V c main_arg1 (((cfg1.win 1).blk t).view.emb (ix2 q a)) = V c main_arg1 _
  refine congrArg (V c main_arg1) ?_
  funext d; apply Fin.ext
  match d with
  | ⟨0, _⟩ => show win1_1.index t (0 : Fin 2) * 1024 + 1 * q.val = win1_3.index t (1 : Fin 2) * 1024 + q.val; omega
  | ⟨1, _⟩ => show win1_1.index t (1 : Fin 2) * 2048 + 1 * a.val = a.val; omega

/-- The bias block at point `t`, at `q`, is the bias at `block number × 1024 + q`. -/
theorem read_bias (c : Dev nD) (t : Fin cfg1.N) (q : Fin 1024)
    (hn : win1_3.index t (1 : Fin 2) * 1024 + q.val < 4096) :
    iblk1 V c 2 t (ix1 q) = V c main_arg2 (ix1 (⟨win1_3.index t (1 : Fin 2) * 1024 + q.val, hn⟩ : Fin 4096)) := by
  obtain ⟨-, -, -, -, e4, -⟩ := idx_facts t
  show V c main_arg2 (((cfg1.win 2).blk t).view.emb (ix1 q)) = V c main_arg2 _
  refine congrArg (V c main_arg2) ?_
  funext d; apply Fin.ext
  match d with
  | ⟨0, _⟩ => show win1_2.index t (0 : Fin 1) * 1024 + 1 * q.val = win1_3.index t (1 : Fin 2) * 1024 + q.val; omega

/-! ## What a point writes back, and the array the blocks fill -/

/-- Point `t` writes back block `t` of the dense layer of the three arrays as the region finds them. -/
theorem flushed_eq (c : Dev nD) (t : Fin cfg1.N) :
    (dat1 (F := Ideal) V c).flushed 3 t
      = ((cfg1.win 3).blk t).view.read (Elt Ideal) (Cert.Gating.layer (V c main_v1) (V c main_arg1) (V c main_arg2)) := by
  show (cfg1.win 3).cut (grid1.coords t) ((dat1 V c).after 3 t) = _
  rw [after1_3]
  unfold out1_3
  rw [View.canon_unit_zero hz2]
  simp only [View.ld_unit_zero (S := S64x2048) hz2, View.ld_unit_zero (S := S1024x2048) hz2, View.ld_unit_zero (S := S1024) hz1]
  funext j
  obtain ⟨p, q, rfl⟩ : ∃ (p : Fin 64) (q : Fin 1024), j = ix2 p q := ⟨j 0, j 1, eq_ix2 j⟩
  show k1_pay1 (iblk1 V c 0 t) (iblk1 V c 1 t) (iblk1 V c 2 t) (ix2 p q)
    = Cert.Gating.layer (V c main_v1) (V c main_arg1) (V c main_arg2) (((cfg1.win 3).blk t).view.emb (ix2 p q))
  refine (pay_at (iblk1 V c 0 t) (iblk1 V c 1 t) (iblk1 V c 2 t) p q).trans ?_
  obtain ⟨-, -, -, -, -, e5, e6⟩ := idx_facts t
  have hn : win1_3.index t (1 : Fin 2) * 1024 + q.val < 4096 := by have := q.isLt; omega
  have hemb : ((cfg1.win 3).blk t).view.emb (ix2 p q)
      = ix2 p (⟨win1_3.index t (1 : Fin 2) * 1024 + q.val, hn⟩ : Fin 4096) := by
    funext d; apply Fin.ext
    match d with
    | ⟨0, _⟩ => show win1_3.index t (0 : Fin 2) * 64 + 1 * p.val = p.val; omega
    | ⟨1, _⟩ => show win1_3.index t (1 : Fin 2) * 1024 + 1 * q.val = win1_3.index t (1 : Fin 2) * 1024 + q.val; omega
  rw [hemb, Cert.Gating.layer_ix2]
  unfold Cert.Gating.layerAt
  refine congrArg Ideal.logistic (congrArg₂ (· + ·) (Finset.sum_congr rfl fun a _ => congrArg₂ (· * ·) ?_ ?_) ?_)
  · exact read_left V c t p a
  · exact read_weight V c t q a hn
  · exact read_bias V c t q hn

/-- An index of the array is in point `t`'s block iff each coordinate is in the block's range on its axis. -/
theorem mem_blk (t : Fin cfg1.N) (i : S64x4096.Idx) :
    i ∈ ((cfg1.win 3).blk t).view.set ↔ ∀ a : Fin 2, win1_3.index t a * S64x1024.size a ≤ (i a).val
      ∧ (i a).val < win1_3.index t a * S64x1024.size a + S64x1024.size a := by
  show i ∈ ((View.whole main_v2).slice (win1_3.rect t)).set ↔ _
  rw [View.set_slice_whole, Rect.mem_set_unit]
  exact Iff.rfl

/-- The blocks fill the array: column `n` lies in the block numbered `n / 1024`. -/
theorem cover (i : S64x4096.Idx) :
    ∃ t : Fin cfg1.N, (cfg1.win 3).flush t = true ∧ i ∈ ((cfg1.win 3).blk t).view.set := by
  have hi0 : (i 0).val < 64 := (i 0).isLt
  have hi1 : (i 1).val < 4096 := (i 1).isLt
  obtain ⟨t, ht⟩ := idx_onto ⟨(i 1).val / 1024, by omega⟩
  have q1 : win1_3.index t (1 : Fin 2) = (i 1).val / 1024 := ht
  obtain ⟨-, -, -, -, -, e5, -⟩ := idx_facts t
  refine ⟨t, flush1_3 t, ?_⟩
  rw [mem_blk]
  intro a
  match a with
  | ⟨0, _⟩ =>
    show win1_3.index t (0 : Fin 2) * 64 ≤ (i 0).val ∧ (i 0).val < win1_3.index t (0 : Fin 2) * 64 + 64
    omega
  | ⟨1, _⟩ =>
    show win1_3.index t (1 : Fin 2) * 1024 ≤ (i 1).val ∧ (i 1).val < win1_3.index t (1 : Fin 2) * 1024 + 1024
    omega

end HiddenLayer

/-- The array the region leaves is the dense layer, with logistic activation, of the three arrays it found. -/
theorem hidden (c : Dev nD) :
    (dat1 (F := Ideal) V c).arrAt 3 cfg1.N = Cert.Gating.layer (V c main_v1) (V c main_arg1) (V c main_arg2) :=
  (dat1 (F := Ideal) V c).arrAt_eq_of_cover 3 (Cert.Gating.layer (V c main_v1) (V c main_arg1) (V c main_arg2))
    (fun t _ => HiddenLayer.flushed_eq V c t) HiddenLayer.cover

end Cert.KernelIdeal.Regions
end
-- ==== Proof.GateLayer.lean ====
/-
  The second dense layer of the gate, read off the kernel's region.

  The region computes, block of 512 output columns by block, the array
    `(p, n) ↦ σ (∑ a, x (p, a) · w (n, a) + bias n)`,   `σ z = 1 / (1 + e^(-z))`,
  from a `64 × 4096` left factor `x`, a `8192 × 4096` weight matrix `w` contracted along its second axis, and a
  bias of length `8192`. At each of its 16 grid points the body sees the whole of `x`, the 512 rows of `w` and the
  512 bias entries numbered by the point, and writes the 512 columns of the result with the same numbers. The proof
  reads the body's one stored value at an entry `(p, q)` of its block, identifies each block read with a read of the
  array (row or entry `block number × 512 + q`), and lets the 16 column blocks, which tile the `64 × 8192` result, fill
  the array.
-/
import proofs.«176148_j54735063220846_1_alg».proof.Proof.Gen.KernelIdeal.Frame
import proofs.«176148_j54735063220846_1_alg».proof.Proof.Gating
import proofs.«176148_j54735063220846_1_alg».proof.Proof.LibRowDot
import proofs.«176148_j54735063220846_1_alg».proof.Proof.LibVectorReads
import Idealize.ShloMosaic.Lib.Pipeline.Value
import Idealize.ShloMosaic.Lib.ValueIdx
import Idealize.ShloMosaic.PureOps.Ideal.Laws

noncomputable section
namespace Cert.KernelIdeal.Regions
open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

namespace GateLayer
open Idealize.ShloMosaic.ValueIdx
open scoped BigOperators

/-! ## The matrix unit's dimension numbers: the second axis of both factors is contracted

Each factor's index takes its first coordinate from the output index (the left factor from the output's row, the right
factor from the output's column) and its second coordinate from the contraction index. -/

theorem dot_l0 (i : S64x512.Idx) (k : dot_S64x4096_S512x4096_S64x512_1_1_0_0_n_n.contr.Idx) :
    (dot_S64x4096_S512x4096_S64x512_1_1_0_0_n_n.lhsIdx i k 0).val = (i 0).val := by
  unfold DotDims.lhsIdx
  rw [dif_neg (show ¬(0 : Fin S64x4096.rank) ∈ dot_S64x4096_S512x4096_S64x512_1_1_0_0_n_n.lhsBatch by decide),
    dif_pos (show (0 : Fin S64x4096.rank) ∈ dot_S64x4096_S512x4096_S64x512_1_1_0_0_n_n.lhsNonContracting by decide)]
  rfl

theorem dot_l1 (i : S64x512.Idx) (k : dot_S64x4096_S512x4096_S64x512_1_1_0_0_n_n.contr.Idx) :
    (dot_S64x4096_S512x4096_S64x512_1_1_0_0_n_n.lhsIdx i k 1).val = (k ⟨0, by decide⟩).val :=
  dot_S64x4096_S512x4096_S64x512_1_1_0_0_n_n.lhsIdx_val_of_single rfl i k

theorem dot_r0 (i : S64x512.Idx) (k : dot_S64x4096_S512x4096_S64x512_1_1_0_0_n_n.contr.Idx) :
    (dot_S64x4096_S512x4096_S64x512_1_1_0_0_n_n.rhsIdx i k 0).val = (i 1).val := by
  unfold DotDims.rhsIdx
  rw [dif_neg (show ¬(0 : Fin S512x4096.rank) ∈ dot_S64x4096_S512x4096_S64x512_1_1_0_0_n_n.rhsBatch by decide),
    dif_pos (show (0 : Fin S512x4096.rank) ∈ dot_S64x4096_S512x4096_S64x512_1_1_0_0_n_n.rhsNonContracting by decide)]
  rfl

theorem dot_r1 (i : S64x512.Idx) (k : dot_S64x4096_S512x4096_S64x512_1_1_0_0_n_n.contr.Idx) :
    (dot_S64x4096_S512x4096_S64x512_1_1_0_0_n_n.rhsIdx i k 1).val = (k ⟨0, by decide⟩).val :=
  dot_S64x4096_S512x4096_S64x512_1_1_0_0_n_n.rhsIdx_val_of_single rfl i k

/-! ## The body at one entry of its block -/

/-- From a left factor `x0`, a block `x1` of 512 rows of the weight matrix and the matching block `x2` of the bias, the
    body's value at `(p, q)` is the logistic function of row `p` of `x0` against row `q` of `x1`, plus `x2` at `q`. The
    changes of float format are the identity on extended reals, and the product is accumulated into the zero matrix. -/
theorem pay_at (x0 : Vec Ideal S64x4096 .f32) (x1 : Vec Ideal S512x4096 .f32) (x2 : Vec Ideal S512 .f32)
    (p : Fin 64) (q : Fin 512) :
    k2_pay1 x0 x1 x2 (ix2 p q)
      = Ideal.logistic ((∑ a : Fin 4096, x0 (ix2 p a) * x1 (ix2 q a)) + x2 (ix1 q)) := by
  unfold k2_pay1
  refine congrArg Ideal.logistic (congrArg₂ (· + ·) ?_ ?_)
  · refine (Cert.LibRowDot.matmul_rows_zero dot_S64x4096_S512x4096_S64x512_1_1_0_0_n_n rfl rfl
      dot_l0 dot_l1 dot_r0 dot_r1 none _ _ p q).trans ?_
    refine Finset.sum_congr rfl fun a _ => ?_
    refine congrArg₂ (· * ·) ?_ rfl
    exact congrFun (shapeCast_self x0 shapeCasts_S64x4096_S64x4096) (ix2 p a)
  · exact Cert.LibVectorReads.bias_rows_apply x2 shapeCasts_S512_S1x512 broadcasts_S1x512_S64x512 p q

/-! ## Where each window's block sits, at every grid point

The left factor's window is the whole array at every point; the weight window is the block of 512 rows, the bias
window the block of 512 entries and the output window the block of 512 columns, all three at the same block number,
which runs over `0, …, 15`. -/

theorem hz2 : (![0, 0] : Fin 2 → Nat) = fun _ => 0 := funext fun a => by fin_cases a <;> rfl
theorem hz1 : (![0] : Fin 1 → Nat) = fun _ => 0 := funext fun a => by fin_cases a; rfl

theorem idx_facts : ∀ t : Fin cfg2.N,
    win2_0.index t (0 : Fin 2) = 0 ∧ win2_0.index t (1 : Fin 2) = 0
    ∧ win2_1.index t (0 : Fin 2) = win2_3.index t (1 : Fin 2) ∧ win2_1.index t (1 : Fin 2) = 0
    ∧ win2_2.index t (0 : Fin 1) = win2_3.index t (1 : Fin 2)
    ∧ win2_3.index t (0 : Fin 2) = 0 ∧ win2_3.index t (1 : Fin 2) ≤ 15 :=
  (by decide +kernel : ∀ t : Fin grid2.N, _)

/-- Every column block is some point's. -/
theorem idx_onto : ∀ q : Fin 16, ∃ t : Fin cfg2.N, win2_3.index t (1 : Fin 2) = q.val :=
  (by decide +kernel : ∀ q : Fin 16, ∃ t : Fin grid2.N, win2_3.index t (1 : Fin 2) = q.val)

/-- The left factor's block at any point, at `(p, a)`, is the array at `(p, a)`. -/
theorem read_left (c : Dev nD) (t : Fin cfg2.N) (p : Fin 64) (a : Fin 4096) :
    iblk2 V c 0 t (ix2 p a) = V c main_v2 (ix2 p a) := by
  obtain ⟨e0, e1, -⟩ := idx_facts t
  show V c main_v2 (((cfg2.win 0).blk t).view.emb (ix2 p a)) = V c main_v2 (ix2 p a)
  refine congrArg (V c main_v2) ?_
  funext d; apply Fin.ext
  match d with
  | ⟨0, _⟩ => show win2_0.index t (0 : Fin 2) * 64 + 1 * p.val = p.val; omega
  | ⟨1, _⟩ => show win2_0.index t (1 : Fin 2) * 4096 + 1 * a.val = a.val; omega

/-- The weight block at point `t`, at `(q, a)`, is the weight matrix at row `block number × 512 + q`. -/
theorem read_weight (c : Dev nD) (t : Fin cfg2.N) (q : Fin 512) (a : Fin 4096)
    (hn : win2_3.index t (1 : Fin 2) * 512 + q.val < 8192) :
    iblk2 V c 1 t (ix2 q a) = V c main_arg3 (ix2 (⟨win2_3.index t (1 : Fin 2) * 512 + q.val, hn⟩ : Fin 8192) a) := by
  obtain ⟨-, -, e2, e3, -⟩ := idx_facts t
  show V c main_arg3 (((cfg2.win 1).blk t).view.emb (ix2 q a)) = V c main_arg3 _
  refine congrArg (V c main_arg3) ?_
  funext d; apply Fin.ext
  match d with
  | ⟨0, _⟩ => show win2_1.index t (0 : Fin 2) * 512 + 1 * q.val = win2_3.index t (1 : Fin 2) * 512 + q.val; omega
  | ⟨1, _⟩ => show win2_1.index t (1 : Fin 2) * 4096 + 1 * a.val = a.val; omega

/-- The bias block at point `t`, at `q`, is the bias at `block number × 512 + q`. -/
theorem read_bias (c : Dev nD) (t : Fin cfg2.N) (q : Fin 512)
    (hn : win2_3.index t (1 : Fin 2) * 512 + q.val < 8192) :
    iblk2 V c 2 t (ix1 q) = V c main_arg4 (ix1 (⟨win2_3.index t (1 : Fin 2) * 512 + q.val, hn⟩ : Fin 8192)) := by
  obtain ⟨-, -, -, -, e4, -⟩ := idx_facts t
  show V c main_arg4 (((cfg2.win 2).blk t).view.emb (ix1 q)) = V c main_arg4 _
  refine congrArg (V c main_arg4) ?_
  funext d; apply Fin.ext
  match d with
  | ⟨0, _⟩ => show win2_2.index t (0 : Fin 1) * 512 + 1 * q.val = win2_3.index t (1 : Fin 2) * 512 + q.val; omega

/-! ## What a point writes back, and the array the blocks fill -/

/-- Point `t` writes back block `t` of the dense layer of the three arrays as the region finds them. -/
theorem flushed_eq (c : Dev nD) (t : Fin cfg2.N) :
    (dat2 (F := Ideal) V c).flushed 3 t
      = ((cfg2.win 3).blk t).view.read (Elt Ideal) (Cert.Gating.layer (V c main_v2) (V c main_arg3) (V c main_arg4)) := by
  show (cfg2.win 3).cut (grid2.coords t) ((dat2 V c).after 3 t) = _
  rw [after2_3]
  unfold out2_3
  rw [View.canon_unit_zero hz2]
  simp only [View.ld_unit_zero (S := S64x4096) hz2, View.ld_unit_zero (S := S512x4096) hz2, View.ld_unit_zero (S := S512) hz1]
  funext j
  obtain ⟨p, q, rfl⟩ : ∃ (p : Fin 64) (q : Fin 512), j = ix2 p q := ⟨j 0, j 1, eq_ix2 j⟩
  show k2_pay1 (iblk2 V c 0 t) (iblk2 V c 1 t) (iblk2 V c 2 t) (ix2 p q)
    = Cert.Gating.layer (V c main_v2) (V c main_arg3) (V c main_arg4) (((cfg2.win 3).blk t).view.emb (ix2 p q))
  refine (pay_at (iblk2 V c 0 t) (iblk2 V c 1 t) (iblk2 V c 2 t) p q).trans ?_
  obtain ⟨-, -, -, -, -, e5, e6⟩ := idx_facts t
  have hn : win2_3.index t (1 : Fin 2) * 512 + q.val < 8192 := by have := q.isLt; omega
  have hemb : ((cfg2.win 3).blk t).view.emb (ix2 p q)
      = ix2 p (⟨win2_3.index t (1 : Fin 2) * 512 + q.val, hn⟩ : Fin 8192) := by
    funext d; apply Fin.ext
    match d with
    | ⟨0, _⟩ => show win2_3.index t (0 : Fin 2) * 64 + 1 * p.val = p.val; omega
    | ⟨1, _⟩ => show win2_3.index t (1 : Fin 2) * 512 + 1 * q.val = win2_3.index t (1 : Fin 2) * 512 + q.val; omega
  rw [hemb, Cert.Gating.layer_ix2]
  unfold Cert.Gating.layerAt
  refine congrArg Ideal.logistic (congrArg₂ (· + ·) (Finset.sum_congr rfl fun a _ => congrArg₂ (· * ·) ?_ ?_) ?_)
  · exact read_left V c t p a
  · exact read_weight V c t q a hn
  · exact read_bias V c t q hn

/-- An index of the array is in point `t`'s block iff each coordinate is in the block's range on its axis. -/
theorem mem_blk (t : Fin cfg2.N) (i : S64x8192.Idx) :
    i ∈ ((cfg2.win 3).blk t).view.set ↔ ∀ a : Fin 2, win2_3.index t a * S64x512.size a ≤ (i a).val
      ∧ (i a).val < win2_3.index t a * S64x512.size a + S64x512.size a := by
  show i ∈ ((View.whole main_v3).slice (win2_3.rect t)).set ↔ _
  rw [View.set_slice_whole, Rect.mem_set_unit]
  exact Iff.rfl

/-- The blocks fill the array: column `n` lies in the block numbered `n / 512`. -/
theorem cover (i : S64x8192.Idx) :
    ∃ t : Fin cfg2.N, (cfg2.win 3).flush t = true ∧ i ∈ ((cfg2.win 3).blk t).view.set := by
  have hi0 : (i 0).val < 64 := (i 0).isLt
  have hi1 : (i 1).val < 8192 := (i 1).isLt
  obtain ⟨t, ht⟩ := idx_onto ⟨(i 1).val / 512, by omega⟩
  have q1 : win2_3.index t (1 : Fin 2) = (i 1).val / 512 := ht
  obtain ⟨-, -, -, -, -, e5, -⟩ := idx_facts t
  refine ⟨t, flush2_3 t, ?_⟩
  rw [mem_blk]
  intro a
  match a with
  | ⟨0, _⟩ =>
    show win2_3.index t (0 : Fin 2) * 64 ≤ (i 0).val ∧ (i 0).val < win2_3.index t (0 : Fin 2) * 64 + 64
    omega
  | ⟨1, _⟩ =>
    show win2_3.index t (1 : Fin 2) * 512 ≤ (i 1).val ∧ (i 1).val < win2_3.index t (1 : Fin 2) * 512 + 512
    omega

end GateLayer

/-- The array the region leaves is the dense layer, with logistic activation, of the three arrays it found. -/
theorem gate (c : Dev nD) :
    (dat2 (F := Ideal) V c).arrAt 3 cfg2.N = Cert.Gating.layer (V c main_v2) (V c main_arg3) (V c main_arg4) :=
  (dat2 (F := Ideal) V c).arrAt_eq_of_cover 3 (Cert.Gating.layer (V c main_v2) (V c main_arg3) (V c main_arg4))
    (fun t _ => GateLayer.flushed_eq V c t) GateLayer.cover

end Cert.KernelIdeal.Regions
end
-- ==== Proof.WeightedSum.lean ====
/-
  The fourth region of the kernel: the gate-weighted sum over channels.

  The region walks over the batch in eight blocks of eight entries. At block `t` it sees the gate rows
  `w (8t + b, p, ·)` (`b < 8`, `p < 4`, 2048 channels), the inputs `xr (8t + b, ·, s)` (2048 channels, `s < 196`
  positions), and writes the entries `(8t + b, p, s)` of the result. What it writes is, for each of the eight batch
  entries separately, the matrix product of the `4 × 2048` gate rows with the `2048 × 196` inputs, every entry then
  multiplied by the word for `2⁻¹¹`:

      (8t + b, p, s) ↦ (∑ c, w (8t + b, p, c) · xr (8t + b, c, s)) · 2⁻¹¹ .

  Three steps. First the batched product read at one entry: the dimension numbers keep the batch coordinate on both
  factors, take the row from the left factor and the column from the right, and sum over the one remaining axis, so
  into the zero accumulator the entry `(b, p, s)` is `∑ c, l (b, p, c) · r (b, c, s)`; the changes of float format on
  the way are the identity on extended reals. Then one block: each of the three blocks sits at block index `(t, 0, 0)`
  of its array, so coordinate `b` inside a block is batch entry `8t + b` and the other two coordinates are unchanged;
  hence what block `t` writes is the restriction of the whole-array function above to the block. Last, the eight blocks
  tile the result (the block holding batch entry `n` is `n / 8`), so the array ends holding that function everywhere.
  No sum is reordered and no factor is moved across a sum, so nothing here needs the entries to be finite.
-/
import proofs.«176148_j54735063220846_1_alg».proof.Proof.Gen.KernelIdeal.Frame
import proofs.«176148_j54735063220846_1_alg».proof.Proof.Gating
import Idealize.ShloMosaic.Lib.Pipeline.Value
import Idealize.ShloMosaic.Lib.ValueIdx
import Idealize.ShloMosaic.PureOps.Ideal.Laws

noncomputable section
namespace Cert.KernelIdeal.Regions
open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

namespace WeightedSum

/-! ## The batched product at one entry

The product's dimension numbers: axis 0 of both factors is the batch axis, axis 1 of the left factor and axis 2 of the
right are kept, axis 2 of the left and axis 1 of the right are summed over. The six lemmas below say where each
coordinate of a factor's index comes from: the output index `i = (b, p, s)` or the summation index `q`. -/

/-- Left factor, axis 0: the batch coordinate of the output. -/
theorem lhsBatchCoord (i : S8x4x196.Idx) (q : dot_S8x4x2048_S8x2048x196_S8x4x196_2_1_1_2_0_0.contr.Idx) :
    (dot_S8x4x2048_S8x2048x196_S8x4x196_2_1_1_2_0_0.lhsIdx i q 0).val = (i 0).val := by
  unfold DotDims.lhsIdx
  rw [dif_pos (show (0 : Fin S8x4x2048.rank) ∈ dot_S8x4x2048_S8x2048x196_S8x4x196_2_1_1_2_0_0.lhsBatch by decide)]
  rfl

/-- Left factor, axis 1: the row of the output. -/
theorem lhsRowCoord (i : S8x4x196.Idx) (q : dot_S8x4x2048_S8x2048x196_S8x4x196_2_1_1_2_0_0.contr.Idx) :
    (dot_S8x4x2048_S8x2048x196_S8x4x196_2_1_1_2_0_0.lhsIdx i q 1).val = (i 1).val := by
  unfold DotDims.lhsIdx
  rw [dif_neg (show ¬(1 : Fin S8x4x2048.rank) ∈ dot_S8x4x2048_S8x2048x196_S8x4x196_2_1_1_2_0_0.lhsBatch by decide),
    dif_pos (show (1 : Fin S8x4x2048.rank) ∈ dot_S8x4x2048_S8x2048x196_S8x4x196_2_1_1_2_0_0.lhsNonContracting by decide)]
  rfl

/-- Left factor, axis 2: the summation coordinate. -/
theorem lhsSumCoord (i : S8x4x196.Idx) (q : dot_S8x4x2048_S8x2048x196_S8x4x196_2_1_1_2_0_0.contr.Idx) :
    (dot_S8x4x2048_S8x2048x196_S8x4x196_2_1_1_2_0_0.lhsIdx i q 2).val = (q ⟨0, by decide⟩).val :=
  dot_S8x4x2048_S8x2048x196_S8x4x196_2_1_1_2_0_0.lhsIdx_val_of_single rfl i q

/-- Right factor, axis 0: the batch coordinate of the output. -/
theorem rhsBatchCoord (i : S8x4x196.Idx) (q : dot_S8x4x2048_S8x2048x196_S8x4x196_2_1_1_2_0_0.contr.Idx) :
    (dot_S8x4x2048_S8x2048x196_S8x4x196_2_1_1_2_0_0.rhsIdx i q 0).val = (i 0).val := by
  unfold DotDims.rhsIdx
  rw [dif_pos (show (0 : Fin S8x2048x196.rank) ∈ dot_S8x4x2048_S8x2048x196_S8x4x196_2_1_1_2_0_0.rhsBatch by decide)]
  rfl

/-- Right factor, axis 1: the summation coordinate. -/
theorem rhsSumCoord (i : S8x4x196.Idx) (q : dot_S8x4x2048_S8x2048x196_S8x4x196_2_1_1_2_0_0.contr.Idx) :
    (dot_S8x4x2048_S8x2048x196_S8x4x196_2_1_1_2_0_0.rhsIdx i q 1).val = (q ⟨0, by decide⟩).val :=
  dot_S8x4x2048_S8x2048x196_S8x4x196_2_1_1_2_0_0.rhsIdx_val_of_single rfl i q

/-- Right factor, axis 2: the column of the output. -/
theorem rhsColCoord (i : S8x4x196.Idx) (q : dot_S8x4x2048_S8x2048x196_S8x4x196_2_1_1_2_0_0.contr.Idx) :
    (dot_S8x4x2048_S8x2048x196_S8x4x196_2_1_1_2_0_0.rhsIdx i q 2).val = (i 2).val := by
  unfold DotDims.rhsIdx
  rw [dif_neg (show ¬(2 : Fin S8x2048x196.rank) ∈ dot_S8x4x2048_S8x2048x196_S8x4x196_2_1_1_2_0_0.rhsBatch by decide),
    dif_pos (show (2 : Fin S8x2048x196.rank) ∈ dot_S8x4x2048_S8x2048x196_S8x4x196_2_1_1_2_0_0.rhsNonContracting by decide)]
  rfl

/-- Eight independent products `[4, 2048] · [2048, 196]`, accumulated into zero, at the entry `(b, p, s)`: the sum over
    the 2048 channels of `l (b, p, c) * r (b, c, s)`. The summation index set has one axis of extent 2048 and is
    re-indexed by that coordinate. -/
theorem batched_product_apply (l : FVec Ideal S8x4x2048 .bf16) (r : FVec Ideal S8x2048x196 .bf16)
    (b : Fin 8) (p : Fin 4) (s : Fin 196) :
    FloatOps.matmul dot_S8x4x2048_S8x2048x196_S8x4x196_2_1_1_2_0_0 none l r (constant S8x4x196 .f32 0x00000000#32) (ix3 b p s)
      = ∑ c : Fin 2048, l (ix3 b p c) * r (ix3 b c s) := by
  rw [Ideal.matmul_constant_zero_apply,
    ← Equiv.sum_comp (contrEquiv1 dot_S8x4x2048_S8x2048x196_S8x4x196_2_1_1_2_0_0 2048 rfl rfl).symm]
  refine Finset.sum_congr rfl fun k _ => ?_
  have hk := contrEquiv1_symm_val dot_S8x4x2048_S8x2048x196_S8x4x196_2_1_1_2_0_0 2048 rfl rfl k
  have el : dot_S8x4x2048_S8x2048x196_S8x4x196_2_1_1_2_0_0.lhsIdx (ix3 b p s)
      ((contrEquiv1 dot_S8x4x2048_S8x2048x196_S8x4x196_2_1_1_2_0_0 2048 rfl rfl).symm k) = ix3 b p k :=
    funext fun a => Fin.ext (by
      match a with
      | ⟨0, _⟩ => exact lhsBatchCoord _ _
      | ⟨1, _⟩ => exact lhsRowCoord _ _
      | ⟨2, _⟩ => exact (lhsSumCoord _ _).trans hk)
  have er : dot_S8x4x2048_S8x2048x196_S8x4x196_2_1_1_2_0_0.rhsIdx (ix3 b p s)
      ((contrEquiv1 dot_S8x4x2048_S8x2048x196_S8x4x196_2_1_1_2_0_0 2048 rfl rfl).symm k) = ix3 b k s :=
    funext fun a => Fin.ext (by
      match a with
      | ⟨0, _⟩ => exact rhsBatchCoord _ _
      | ⟨1, _⟩ => exact (rhsSumCoord _ _).trans hk
      | ⟨2, _⟩ => exact rhsColCoord _ _)
  rw [el, er]

/-! ## What the body computes from one pair of blocks -/

/-- The body's result at `(b, p, s)`: both blocks are recast to their own shape and narrowed to a shorter float
    format, neither of which changes an extended real; then the batched product, times the word for `2⁻¹¹` spread
    over the block. -/
theorem payload_apply (x0 : Vec Ideal S8x4x2048 .f32) (x1 : Vec Ideal S8x2048x196 .f32)
    (b : Fin 8) (p : Fin 4) (s : Fin 196) :
    k3_pay1 x0 x1 (ix3 b p s)
      = (∑ c : Fin 2048, x0 (ix3 b p c) * x1 (ix3 b c s)) * Ideal.ofBits .f32 0x3A000000#32 := by
  unfold k3_pay1
  refine (mulf_apply _ _ _).trans ?_
  refine congrArg₂ (· * ·) ?_ rfl
  refine (batched_product_apply _ _ b p s).trans ?_
  refine Finset.sum_congr rfl fun c _ => ?_
  exact congrArg₂ (· * ·)
    (congrFun (shapeCast_self x0 shapeCasts_S8x4x2048_S8x4x2048) (ix3 b p c))
    (congrFun (shapeCast_self x1 shapeCasts_S8x2048x196_S8x2048x196) (ix3 b c s))

/-! ## From blocks to the array -/

theorem origin3 : (![0, 0, 0] : Fin 3 → Nat) = fun _ => 0 := funext fun a => by fin_cases a <;> rfl

/-- At grid point `t` each of the three windows is at block index `(t, 0, 0)`: checked at the eight points. -/
theorem index_facts : ∀ t : Fin cfg3.N,
    win3_0.index t (0 : Fin 3) = t.val ∧ win3_0.index t (1 : Fin 3) = 0 ∧ win3_0.index t (2 : Fin 3) = 0
    ∧ win3_1.index t (0 : Fin 3) = t.val ∧ win3_1.index t (1 : Fin 3) = 0 ∧ win3_1.index t (2 : Fin 3) = 0
    ∧ win3_2.index t (0 : Fin 3) = t.val ∧ win3_2.index t (1 : Fin 3) = 0 ∧ win3_2.index t (2 : Fin 3) = 0 :=
  (by decide +kernel : ∀ t : Fin grid3.N, _)

/-- There are eight grid points. -/
theorem point_lt (t : Fin cfg3.N) : t.val < 8 := by
  have hN : cfg3.N = 8 := N_3
  have := t.isLt
  omega

/-- The gate block at point `t`, read at `(b, p, k)`, is the gate array at `(8t + b, p, k)`. -/
theorem gate_block_read (c : Dev nD) (t : Fin cfg3.N) (b : Fin 8) (p : Fin 4) (k : Fin 2048)
    (hb : t.val * 8 + b.val < 64) :
    iblk3 V c 0 t (ix3 b p k) = V c main_v4 (ix3 ⟨t.val * 8 + b.val, hb⟩ p k) := by
  obtain ⟨e0, e1, e2, -, -, -, -, -, -⟩ := index_facts t
  show V c main_v4 (((cfg3.win 0).blk t).view.emb (ix3 b p k)) = V c main_v4 _
  refine congrArg _ (funext fun a => Fin.ext ?_)
  match a with
  | ⟨0, _⟩ => show win3_0.index t (0 : Fin 3) * 8 + 1 * b.val = t.val * 8 + b.val; omega
  | ⟨1, _⟩ => show win3_0.index t (1 : Fin 3) * 4 + 1 * p.val = p.val; omega
  | ⟨2, _⟩ => show win3_0.index t (2 : Fin 3) * 2048 + 1 * k.val = k.val; omega

/-- The input block at point `t`, read at `(b, k, s)`, is the input array at `(8t + b, k, s)`. -/
theorem input_block_read (c : Dev nD) (t : Fin cfg3.N) (b : Fin 8) (k : Fin 2048) (s : Fin 196)
    (hb : t.val * 8 + b.val < 64) :
    iblk3 V c 1 t (ix3 b k s) = V c main_v0 (ix3 ⟨t.val * 8 + b.val, hb⟩ k s) := by
  obtain ⟨-, -, -, e0, e1, e2, -, -, -⟩ := index_facts t
  show V c main_v0 (((cfg3.win 1).blk t).view.emb (ix3 b k s)) = V c main_v0 _
  refine congrArg _ (funext fun a => Fin.ext ?_)
  match a with
  | ⟨0, _⟩ => show win3_1.index t (0 : Fin 3) * 8 + 1 * b.val = t.val * 8 + b.val; omega
  | ⟨1, _⟩ => show win3_1.index t (1 : Fin 3) * 2048 + 1 * k.val = k.val; omega
  | ⟨2, _⟩ => show win3_1.index t (2 : Fin 3) * 196 + 1 * s.val = s.val; omega

/-- The place `(b, p, s)` of the result block at point `t` is the place `(8t + b, p, s)` of the result array. -/
theorem output_block_index (t : Fin cfg3.N) (b : Fin 8) (p : Fin 4) (s : Fin 196)
    (hb : t.val * 8 + b.val < 64) :
    ((cfg3.win 2).blk t).view.emb (ix3 b p s) = (ix3 ⟨t.val * 8 + b.val, hb⟩ p s : S64x4x196.Idx) := by
  obtain ⟨-, -, -, -, -, -, e0, e1, e2⟩ := index_facts t
  refine funext fun a => Fin.ext ?_
  match a with
  | ⟨0, _⟩ => show win3_2.index t (0 : Fin 3) * 8 + 1 * b.val = t.val * 8 + b.val; omega
  | ⟨1, _⟩ => show win3_2.index t (1 : Fin 3) * 4 + 1 * p.val = p.val; omega
  | ⟨2, _⟩ => show win3_2.index t (2 : Fin 3) * 196 + 1 * s.val = s.val; omega

/-- What point `t` writes back is block `t` of the gated channel sum of the two arrays: at `(b, p, s)` the body's sum
    over the channels of the two blocks is, block read by block read, the sum for batch entry `8t + b`. -/
theorem flushed_eq (c : Dev nD) (t : Fin cfg3.N) :
    (dat3 (F := Ideal) V c).flushed 2 t
      = ((cfg3.win 2).blk t).view.read (Elt Ideal) (Cert.Gating.wsum (V c main_v4) (V c main_v0)) := by
  show (cfg3.win 2).cut (grid3.coords t) ((dat3 (F := Ideal) V c).after 2 t) = _
  rw [after3_2]
  unfold out3_2
  rw [View.canon_unit_zero origin3]
  simp only [View.ld_unit_zero (S := S8x4x2048) origin3, View.ld_unit_zero (S := S8x2048x196) origin3]
  refine funext fun (j : S8x4x196.Idx) => ?_
  obtain ⟨b, p, s, rfl⟩ : ∃ (b : Fin 8) (p : Fin 4) (s : Fin 196), j = ix3 b p s := ⟨j 0, j 1, j 2, eq_ix3 j⟩
  have ht := point_lt t
  have hb : t.val * 8 + b.val < 64 := by have := b.isLt; omega
  show k3_pay1 (iblk3 V c 0 t) (iblk3 V c 1 t) (ix3 b p s)
    = Cert.Gating.wsum (V c main_v4) (V c main_v0) (((cfg3.win 2).blk t).view.emb (ix3 b p s))
  rw [output_block_index t b p s hb, Cert.Gating.wsum_ix3]
  refine (payload_apply (iblk3 V c 0 t) (iblk3 V c 1 t) b p s).trans ?_
  unfold Cert.Gating.wsumAt
  refine congrArg (· * Ideal.ofBits .f32 0x3A000000#32) (Finset.sum_congr rfl fun k _ => ?_)
  rw [gate_block_read V c t b p k hb, input_block_read V c t b k s hb]

/-- An index of the result array lies in block `t` exactly when each coordinate lies in the block's range. -/
theorem mem_block (t : Fin cfg3.N) (i : S64x4x196.Idx) :
    i ∈ ((cfg3.win 2).blk t).view.set ↔ ∀ a : Fin 3, win3_2.index t a * S8x4x196.size a ≤ (i a).val
      ∧ (i a).val < win3_2.index t a * S8x4x196.size a + S8x4x196.size a := by
  show i ∈ ((View.whole main_v5).slice (win3_2.rect t)).set ↔ _
  rw [View.set_slice_whole, Rect.mem_set_unit]
  exact Iff.rfl

/-- The eight blocks tile the result: batch entry `n` lies in block `n / 8`, and every block is written back. -/
theorem blocks_cover (i : S64x4x196.Idx) :
    ∃ t : Fin cfg3.N, (cfg3.win 2).flush t = true ∧ i ∈ ((cfg3.win 2).blk t).view.set := by
  have hi0 : (i 0).val < 64 := (i 0).isLt
  have hi1 : (i 1).val < 4 := (i 1).isLt
  have hi2 : (i 2).val < 196 := (i 2).isLt
  have hN : cfg3.N = 8 := N_3
  obtain ⟨t, ht⟩ : ∃ t : Fin cfg3.N, t.val = (i 0).val / 8 := ⟨⟨(i 0).val / 8, by omega⟩, rfl⟩
  obtain ⟨-, -, -, -, -, -, e0, e1, e2⟩ := index_facts t
  refine ⟨t, flush3_2 t, ?_⟩
  rw [mem_block]
  intro a
  match a with
  | ⟨0, _⟩ => show win3_2.index t (0 : Fin 3) * 8 ≤ (i 0).val ∧ (i 0).val < win3_2.index t (0 : Fin 3) * 8 + 8; omega
  | ⟨1, _⟩ => show win3_2.index t (1 : Fin 3) * 4 ≤ (i 1).val ∧ (i 1).val < win3_2.index t (1 : Fin 3) * 4 + 4; omega
  | ⟨2, _⟩ => show win3_2.index t (2 : Fin 3) * 196 ≤ (i 2).val ∧ (i 2).val < win3_2.index t (2 : Fin 3) * 196 + 196; omega

end WeightedSum

/-- After the region the result array holds the gated channel sum of the gate array and the input array as the
    region found them: every block written is the restriction of that function, and the blocks tile the array. -/
theorem weighted (c : Dev nD) :
    (dat3 (F := Ideal) V c).arrAt 2 cfg3.N = Cert.Gating.wsum (V c main_v4) (V c main_v0) :=
  (dat3 (F := Ideal) V c).arrAt_eq_of_cover 2 (Cert.Gating.wsum (V c main_v4) (V c main_v0))
    (fun t _ => WeightedSum.flushed_eq V c t) WeightedSum.blocks_cover

end Cert.KernelIdeal.Regions
end
-- ==== Proof.KernelValue.lean ====
/-
  The contents of the kernel's buffers at each region's entry, and the two results.

  The run passes through a reshape, three regions, a reshape, a fourth region and a last reshape. Writing `xr` for the
  input with its spatial axes merged:
    * the first reshape puts `xr` in place; the first region reads it and leaves the pooled means `pool xr`;
    * the second region reads the means and the first layer's weight and bias — untouched since launch, as nothing before
      writes them — and leaves the hidden layer `layer (pool xr) w₁ b₁`; the third likewise leaves the gate
      `layer (layer (pool xr) w₁ b₁) w₂ b₂`;
    * the second reshape regroups the gate as `[64, 4, 2048]`: the first result. The fourth region reads it together with
      `xr` — still in place: the first region only read it, and nothing since has written it — and leaves their weighted sums;
    * the last reshape restores the spatial axes: the second result. It does not touch the first result, which the fourth
      region only read.
  Each step is one of three facts: a reshape writes its one buffer with the reshaped operand and keeps every other buffer;
  a region leaves in each output array the stage function of its input arrays as it found them (one lemma per region),
  leaves each input array as it found it, and keeps every buffer that is not one of its arrays.
-/
import proofs.«176148_j54735063220846_1_alg».proof.Proof.Gen.KernelIdeal.Frame
import proofs.«176148_j54735063220846_1_alg».proof.Proof.Gating
import proofs.«176148_j54735063220846_1_alg».proof.Proof.Pooled
import proofs.«176148_j54735063220846_1_alg».proof.Proof.HiddenLayer
import proofs.«176148_j54735063220846_1_alg».proof.Proof.GateLayer
import proofs.«176148_j54735063220846_1_alg».proof.Proof.WeightedSum
import Idealize.ShloMosaic.Lib.StableHlo.Run
import Idealize.ShloMosaic.Lib.Pipeline.Value

set_option maxRecDepth 16384

noncomputable section

namespace Cert.KernelIdeal.Fold

open Cert.KernelIdeal Cert.KernelIdeal.Gen Cert.KernelIdeal.Regions
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The input with its two spatial axes merged. -/
def merged (c : Dev nD) : S64x2048x196.Idx → EReal :=
  shapeCast S64x2048x196 (m ((c : Thread nD τ).loc main_arg0)) shapeCasts_S64x2048x14x14_S64x2048x196

/-- The gate: two dense layers with logistic activation over the pooled input, as a `[64, 8192]` array. -/
def gateFlat (c : Dev nD) : S64x8192.Idx → EReal :=
  Cert.Gating.layer
    (Cert.Gating.layer (Cert.Gating.pool (merged m c)) (m ((c : Thread nD τ).loc main_arg1)) (m ((c : Thread nD τ).loc main_arg2)))
    (m ((c : Thread nD τ).loc main_arg3)) (m ((c : Thread nD τ).loc main_arg4))

/-- The first result: the gate regrouped as `[64, 4, 2048]`. -/
def gateRows (c : Dev nD) : S64x4x2048.Idx → EReal :=
  shapeCast S64x4x2048 (gateFlat m c) shapeCasts_S64x8192_S64x4x2048

/-- The second result: the gate-weighted channel sums with the spatial axes restored. -/
def features (c : Dev nD) : S64x4x14x14.Idx → EReal :=
  shapeCast S64x4x14x14 (Cert.Gating.wsum (gateRows m c) (merged m c)) shapeCasts_S64x4x196_S64x4x14x14

/-! ## The three host stretches: one reshape each -/

theorem stretch0_writes (c : Dev nD) (W : Valuation τ sig (Elt Ideal)) :
    StableHlo.after (hostOps0 (F := Ideal)) W (Proc.devRef .tc main_v0)
      = shapeCast S64x2048x196 (W (Proc.devRef .tc main_arg0)) shapeCasts_S64x2048x14x14_S64x2048x196 := by
  after_results
  rfl

theorem stretch3_writes (c : Dev nD) (W : Valuation τ sig (Elt Ideal)) :
    StableHlo.after (hostOps3 (F := Ideal)) W (Proc.devRef .tc main_v4)
      = shapeCast S64x4x2048 (W (Proc.devRef .tc main_v3)) shapeCasts_S64x8192_S64x4x2048 := by
  after_results
  rfl

theorem stretch4_writes (c : Dev nD) (W : Valuation τ sig (Elt Ideal)) :
    StableHlo.after (hostOps4 (F := Ideal)) W (Proc.devRef .tc main_v6)
      = shapeCast S64x4x14x14 (W (Proc.devRef .tc main_v5)) shapeCasts_S64x4x196_S64x4x14x14 := by
  after_results
  rfl

/-- The first stretch writes only the merged input. -/
theorem stretch0_keeps (W : Valuation τ sig (Elt Ideal)) (b : Ref sig .tc) (hb : b ≠ main_v0) :
    StableHlo.after (hostOps0 (F := Ideal)) W (Proc.devRef .tc b) = W (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The second stretch writes only the regrouped gate. -/
theorem stretch3_keeps (W : Valuation τ sig (Elt Ideal)) (b : Ref sig .tc) (hb : b ≠ main_v4) :
    StableHlo.after (hostOps3 (F := Ideal)) W (Proc.devRef .tc b) = W (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

/-- The third stretch writes only the second result. -/
theorem stretch4_keeps (W : Valuation τ sig (Elt Ideal)) (b : Ref sig .tc) (hb : b ≠ main_v6) :
    StableHlo.after (hostOps4 (F := Ideal)) W (Proc.devRef .tc b) = W (Proc.devRef .tc b) :=
  StableHlo.after_of_forall_not_mem (b := Proc.devRef .tc b) _ _ (List.forall_iff_forall_mem.mp (by
    simp only [hostOps4, List.Forall, StableHlo.reshape_writes, Finset.mem_singleton]
    exact StableHlo.devRef_ne_of_ne hb))

/-! ## The contents at each region's entry -/

/-- Entering the first region the merged input is in place. -/
theorem entry0_input (c : Dev nD) : V1 m ρ c main_v0 = merged m c :=
  stretch0_writes c (W0 m ρ c)

/-- Entering the second region: the pooled input, and the first layer's weights and bias as launched. -/
theorem entry1_pooled (c : Dev nD) : V2 m ρ c main_v1 = Cert.Gating.pool (merged m c) :=
  (W2_arr m ρ c 1).trans ((pooled (V1 m ρ) c).trans (congrArg Cert.Gating.pool (entry0_input m ρ c)))

theorem entry1_w (c : Dev nD) : V2 m ρ c main_arg1 = m ((c : Thread nD τ).loc main_arg1) :=
  (W2_of_ne m ρ c main_arg1 (by decide)).trans (stretch0_keeps (W0 m ρ c) main_arg1 (by decide))

theorem entry1_b (c : Dev nD) : V2 m ρ c main_arg2 = m ((c : Thread nD τ).loc main_arg2) :=
  (W2_of_ne m ρ c main_arg2 (by decide)).trans (stretch0_keeps (W0 m ρ c) main_arg2 (by decide))

/-- The merged input is an input of the first region, which leaves it as it found it. -/
theorem exit0_input (c : Dev nD) : V2 m ρ c main_v0 = merged m c :=
  (W2_arr m ρ c 0).trans ((((dat0 (V1 m ρ) c).arrAt_in 0 rfl _).trans (A_eq0 (V1 m ρ) c 0)).trans (entry0_input m ρ c))

/-- Entering the third region: the hidden layer, and the second layer's weights and bias as launched. -/
theorem entry2_hidden (c : Dev nD) : V3 m ρ c main_v2
    = Cert.Gating.layer (Cert.Gating.pool (merged m c)) (m ((c : Thread nD τ).loc main_arg1)) (m ((c : Thread nD τ).loc main_arg2)) := by
  refine (W3_arr m ρ c 3).trans ((hidden (V2 m ρ) c).trans ?_)
  rw [entry1_pooled, entry1_w, entry1_b]

theorem entry2_w (c : Dev nD) : V3 m ρ c main_arg3 = m ((c : Thread nD τ).loc main_arg3) :=
  (W3_of_ne m ρ c main_arg3 (by decide)).trans
    ((W2_of_ne m ρ c main_arg3 (by decide)).trans (stretch0_keeps (W0 m ρ c) main_arg3 (by decide)))

theorem entry2_b (c : Dev nD) : V3 m ρ c main_arg4 = m ((c : Thread nD τ).loc main_arg4) :=
  (W3_of_ne m ρ c main_arg4 (by decide)).trans
    ((W2_of_ne m ρ c main_arg4 (by decide)).trans (stretch0_keeps (W0 m ρ c) main_arg4 (by decide)))

/-- Leaving the third region the gate is in place. -/
theorem exit2_gate (c : Dev nD) : V4 m ρ c main_v3 = gateFlat m c := by
  refine (W4_arr m ρ c 3).trans ((gate (V3 m ρ) c).trans ?_)
  rw [entry2_hidden, entry2_w, entry2_b]
  rfl

/-- Entering the fourth region: the regrouped gate and the merged input. -/
theorem entry3_gate (c : Dev nD) : V5 m ρ c main_v4 = gateRows m c :=
  (stretch3_writes c (W4 m ρ c)).trans
    (congrArg (fun g => shapeCast S64x4x2048 g shapeCasts_S64x8192_S64x4x2048) (exit2_gate m ρ c))

theorem entry3_input (c : Dev nD) : V5 m ρ c main_v0 = merged m c :=
  (stretch3_keeps (W4 m ρ c) main_v0 (by decide)).trans
    ((W4_of_ne m ρ c main_v0 (by decide)).trans ((W3_of_ne m ρ c main_v0 (by decide)).trans (exit0_input m ρ c)))

/-! ## The two results -/

/-- The first result buffer ends at the regrouped gate: the fourth region reads it and the last stretch does not touch it. -/
theorem result_gate (c : Dev nD) : W7 m ρ c (Proc.devRef .tc main_v4) = gateRows m c :=
  (stretch4_keeps (W6 m ρ c) main_v4 (by decide)).trans
    ((W6_arr m ρ c 0).trans ((((dat3 (V5 m ρ) c).arrAt_in 0 rfl _).trans (A_eq3 (V5 m ρ) c 0)).trans (entry3_gate m ρ c)))

/-- The second result buffer ends at the weighted sums with the spatial axes restored. -/
theorem result_features (c : Dev nD) : W7 m ρ c (Proc.devRef .tc main_v6) = features m c := by
  refine (stretch4_writes c (W6 m ρ c)).trans ?_
  refine congrArg (fun g => shapeCast S64x4x14x14 g shapeCasts_S64x4x196_S64x4x14x14) ?_
  refine (W6_arr m ρ c 2).trans ((weighted (V5 m ρ) c).trans ?_)
  rw [entry3_gate, entry3_input]

end Cert.KernelIdeal.Fold

end
-- ==== Proof.RefPool.lean ====
/-
  The reference's first stage: the mean over the two spatial axes, against the mean over the merged axis.

  The reference sums `x[b, c, :, :]` over both spatial axes at once — a sum over the indices of the `[64, 2048, 14, 14]`
  array whose first two coordinates are `(b, c)` — from zero, and divides by the word for `196`. The specification's
  `pool` sums the reshaped array `xr[b, c, :]` over its last axis, of length `196 = 14 · 14`. A position `s` of the merged
  axis is the pair `(s / 14, s % 14)` of spatial coordinates, and the reshape reads `xr (b, c, s) = x (b, c, s / 14, s % 14)`
  (equal row-major positions); `s ↦ (b, c, s / 14, s % 14)` is a bijection from the positions onto the indices the
  reference sums over, so the two sums have the same terms. Only commutativity and associativity of the sum are used.
-/
import proofs.«176148_j54735063220846_1_alg».proof.Proof.Gen.ReferenceIdeal.Read
import proofs.«176148_j54735063220846_1_alg».proof.Proof.Gating
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Idealize.ShloMosaic Idealize.ShloMosaic.TcCoe Idealize.SL.Sem
open Cert.ReferenceIdeal.Read Idealize.ShloMosaic.ValueIdx

/-- The position on the merged axis of an index's two spatial coordinates. -/
def position (i : (⟨4, ![64, 2048, 14, 14]⟩ : Shape).Idx) : Fin 196 :=
  ⟨(i 2).val * 14 + (i 3).val, by
    have h2 : (i 2).val < 14 := (i 2).isLt
    have h3 : (i 3).val < 14 := (i 3).isLt
    omega⟩

/-- The index of the four-axis array at batch entry `b`, channel `c` and merged position `s`. -/
def spatial (b : Fin 64) (c : Fin 2048) (s : Fin 196) : (⟨4, ![64, 2048, 14, 14]⟩ : Shape).Idx :=
  ix4 b c (⟨s.val / 14, by have := s.isLt; omega⟩ : Fin 14) (⟨s.val % 14, Nat.mod_lt _ (by norm_num)⟩ : Fin 14)

/-- An index reduces to `(b, c)` exactly when its first two coordinates are `b` and `c`. -/
theorem drop_eq_iff (h : (⟨4, ![64, 2048, 14, 14]⟩ : Shape).ReducesTo [2, 3] ⟨2, ![64, 2048]⟩)
    (i : (⟨4, ![64, 2048, 14, 14]⟩ : Shape).Idx) (b : Fin 64) (c : Fin 2048) :
    h.drop i = ix2 b c ↔ (i 0).val = b.val ∧ (i 1).val = c.val := by
  have d0 : (h.drop i 0 : Nat) = i 0 := Shape.ReducesTo.drop_apply_val_of_eq h i 0 0
  have d1 : (h.drop i 1 : Nat) = i 1 := Shape.ReducesTo.drop_apply_val_of_eq h i 1 1
  constructor
  · intro e
    refine ⟨d0.symm.trans ?_, d1.symm.trans ?_⟩
    · exact congrArg (fun j : (⟨2, ![64, 2048]⟩ : Shape).Idx => (j 0).val) e
    · exact congrArg (fun j : (⟨2, ![64, 2048]⟩ : Shape).Idx => (j 1).val) e
  · rintro ⟨e0, e1⟩
    funext a
    apply Fin.ext
    match a with
    | ⟨0, _⟩ => exact d0.trans e0
    | ⟨1, _⟩ => exact d1.trans e1

/-- The sum over the indices that reduce to `(b, c)` is the sum over the merged positions. -/
theorem sum_positions (h : (⟨4, ![64, 2048, 14, 14]⟩ : Shape).ReducesTo [2, 3] ⟨2, ![64, 2048]⟩)
    (x : (⟨4, ![64, 2048, 14, 14]⟩ : Shape).Idx → EReal) (b : Fin 64) (c : Fin 2048) :
    ∑ i ∈ Finset.univ.filter (fun i => h.drop i = ix2 b c), x i = ∑ s : Fin 196, x (spatial b c s) := by
  refine Finset.sum_nbij' position (spatial b c) ?_ ?_ ?_ ?_ ?_
  · intro i _; exact Finset.mem_univ _
  · intro s _
    rw [Finset.mem_filter]
    exact ⟨Finset.mem_univ _, (drop_eq_iff h _ b c).mpr ⟨rfl, rfl⟩⟩
  · intro i hi
    rw [Finset.mem_filter] at hi
    obtain ⟨e0, e1⟩ := (drop_eq_iff h i b c).mp hi.2
    have h2 : (i 2).val < 14 := (i 2).isLt
    have h3 : (i 3).val < 14 := (i 3).isLt
    funext a
    apply Fin.ext
    match a with
    | ⟨0, _⟩ => exact e0.symm
    | ⟨1, _⟩ => exact e1.symm
    | ⟨2, _⟩ => show ((i 2).val * 14 + (i 3).val) / 14 = (i 2).val; omega
    | ⟨3, _⟩ => show ((i 2).val * 14 + (i 3).val) % 14 = (i 3).val; omega
  · intro s _
    apply Fin.ext
    show s.val / 14 * 14 + s.val % 14 = s.val
    omega
  · intro i hi
    rw [Finset.mem_filter] at hi
    obtain ⟨e0, e1⟩ := (drop_eq_iff h i b c).mp hi.2
    have h2 : (i 2).val < 14 := (i 2).isLt
    have h3 : (i 3).val < 14 := (i 3).isLt
    refine congrArg x ?_
    funext a
    apply Fin.ext
    match a with
    | ⟨0, _⟩ => exact e0
    | ⟨1, _⟩ => exact e1
    | ⟨2, _⟩ => show (i 2).val = ((i 2).val * 14 + (i 3).val) / 14; omega
    | ⟨3, _⟩ => show (i 3).val = ((i 2).val * 14 + (i 3).val) % 14; omega

variable (x0 : (⟨S64x2048x14x14, .f32⟩ : BufTy).Contents (Elt Ideal))

/-- The reference's mean over the two spatial axes is `pool` of the reshaped input. -/
theorem pooled : val_main_v2 (F := Ideal) x0 = Cert.Gating.pool (val_main_v26 (F := Ideal) x0) := by
  funext i
  obtain ⟨b, c, rfl⟩ : ∃ (b : Fin 64) (c : Fin 2048), i = ix2 b c := ⟨i 0, i 1, eq_ix2 i⟩
  rw [Cert.Gating.pool_ix2]
  unfold Cert.Gating.poolAt
  rw [val_main_v2_apply, val_main_v1_apply, val_main_cst_0_apply]
  show Ideal.div (val_main_v0 (F := Ideal) x0 (ix2 b c)) (Ideal.ofBits .f32 0x43440000#32) = _
  refine congrArg (fun z => Ideal.div z (Ideal.ofBits .f32 0x43440000#32)) ?_
  unfold val_main_v0
  show Ideal.hostReduceAdd _ x0 (Ideal.ofBits .f32 0x00000000#32) (ix2 b c) = _
  unfold Ideal.hostReduceAdd
  rw [Ideal.ofBits_zero_f32, zero_add, sum_positions]
  refine Finset.sum_congr rfl fun s _ => ?_
  rw [val_main_v26_apply]
  refine congrArg x0 ?_
  have hs : s.val < 196 := s.isLt
  have hb : b.val < 64 := b.isLt
  have hc : c.val < 2048 := c.isLt
  funext a
  apply Fin.ext
  match a with
  | ⟨0, _⟩ => show b.val = ((b.val * 2048 + c.val) * 196 + s.val) / 401408; omega
  | ⟨1, _⟩ => show c.val = ((b.val * 2048 + c.val) * 196 + s.val) / 196 % 2048; omega
  | ⟨2, _⟩ => show s.val / 14 = ((b.val * 2048 + c.val) * 196 + s.val) / 14 % 14; omega
  | ⟨3, _⟩ => show s.val % 14 = ((b.val * 2048 + c.val) * 196 + s.val) % 14; omega

end Cert.ReferenceIdeal.RefValue

end
-- ==== Proof.RefLayers.lean ====
/-
  Three stages of the reference computation, each read as one of the stage functions of the specification.

  The reference builds its two dense layers from a transposed weight matrix, a bias row repeated down the batch axis,
  and the logistic function spelt as a quotient `1 / (1 + e^(-z))`. Read entry by entry, the transpose only swaps the
  two coordinates of the weight, the repeated bias row forgets the batch coordinate, and the contraction runs over the
  shared axis; so entry `(p, n)` of the stage is the quotient above at
  `z = (∑ a, x (p, a) · w (n, a)) + bias n`, which is the logistic function at `z`. The first layer takes the pooled
  means to the hidden activations (2048 → 4096 columns), the second takes those to the gate (4096 → 8192 columns).

  The last stage contracts, for every batch entry, the gate rows against the channel axis of the input and divides by
  `2048`: entry `(b, p, s)` is `(∑ c, w (b, p, c) · xr (b, c, s)) / 2048`, and a quotient by `2048` is the product
  with `2⁻¹¹` at every extended real. Neither argument of that contraction is opened: they stay the same two arrays
  on both sides.
-/
import proofs.«176148_j54735063220846_1_alg».proof.Proof.Gen.ReferenceIdeal.Read
import proofs.«176148_j54735063220846_1_alg».proof.Proof.Gating

noncomputable section
namespace Cert.ReferenceIdeal.RefValue
open Cert.ReferenceIdeal Cert.ReferenceIdeal.Gen Idealize.ShloMosaic Idealize.ShloMosaic.TcCoe Idealize.SL.Sem
open Cert.ReferenceIdeal.Read

-- The arrays the reference is run on: the input, and the weights and biases of the two layers.
variable (x0 : (⟨S64x2048x14x14, .f32⟩ : BufTy).Contents (Elt Ideal)) (x1 : (⟨S4096x2048, .f32⟩ : BufTy).Contents (Elt Ideal))
  (x2 : (⟨S4096, .f32⟩ : BufTy).Contents (Elt Ideal)) (x3 : (⟨S8192x4096, .f32⟩ : BufTy).Contents (Elt Ideal))
  (x4 : (⟨S8192, .f32⟩ : BufTy).Contents (Elt Ideal))

/-- The hidden activations are the first dense layer, with logistic activation, applied to the pooled means. -/
theorem hidden : val_main_v13 (F := Ideal) x0 x1 x2 = Cert.Gating.layer (val_main_v2 (F := Ideal) x0) x1 x2 := by
  funext i
  obtain ⟨p, n, rfl⟩ : ∃ (p : Fin 64) (n : Fin 4096), i = ValueIdx.ix2 p n := ⟨i 0, i 1, ValueIdx.eq_ix2 i⟩
  rw [Cert.Gating.layer_ix2]
  unfold Cert.Gating.layerAt
  rw [val_main_v13_apply, val_main_v12_apply, val_main_cst_2_apply, val_main_v11_apply, val_main_v10_apply,
    val_main_cst_1_apply, val_main_v9_apply, val_main_v8_apply, val_main_v7_apply, val_main_v6_apply,
    val_main_v5_apply, val_main_v4_apply]
  generalize val_main_v2 (F := Ideal) x0 = g
  -- the contraction's left factor sits at (p, k); its right factor, through the transpose, at (n, k); the bias at n
  have el : ∀ k : Fin 2048, lidx_main_v4 (ValueIdx.ix2 p n) k = ValueIdx.ix2 p k := fun k =>
    funext fun a => Fin.ext (by match a with | ⟨0, _⟩ => rfl | ⟨1, _⟩ => rfl)
  have er : ∀ k : Fin 2048, idx_main_v3 (ridx_main_v4 (ValueIdx.ix2 p n) k) = ValueIdx.ix2 n k := fun k =>
    funext fun a => Fin.ext (by match a with | ⟨0, _⟩ => rfl | ⟨1, _⟩ => rfl)
  have eb : idx_main_v5 (idx_main_v6 (ValueIdx.ix2 p n)) = ValueIdx.ix1 n :=
    funext fun a => Fin.ext (by match a with | ⟨0, _⟩ => rfl)
  simp only [val_main_v3_apply, el, er, eb, Ideal.hostDivf_def, Ideal.hostUnary_exp_def, Ideal.hostNegf_def,
    Ideal.negf_def, Ideal.addf_def, Ideal.ofBits_def]
  exact Cert.Gating.logistic_spelt _

/-- The gate is the second dense layer, with logistic activation, applied to the hidden activations. -/
theorem gate : val_main_v24 (F := Ideal) x0 x1 x2 x3 x4 = Cert.Gating.layer (val_main_v13 (F := Ideal) x0 x1 x2) x3 x4 := by
  funext i
  obtain ⟨p, n, rfl⟩ : ∃ (p : Fin 64) (n : Fin 8192), i = ValueIdx.ix2 p n := ⟨i 0, i 1, ValueIdx.eq_ix2 i⟩
  rw [Cert.Gating.layer_ix2]
  unfold Cert.Gating.layerAt
  rw [val_main_v24_apply, val_main_v23_apply, val_main_cst_4_apply, val_main_v22_apply, val_main_v21_apply,
    val_main_cst_3_apply, val_main_v20_apply, val_main_v19_apply, val_main_v18_apply, val_main_v17_apply,
    val_main_v16_apply, val_main_v15_apply]
  generalize val_main_v13 (F := Ideal) x0 x1 x2 = h
  -- the contraction's left factor sits at (p, k); its right factor, through the transpose, at (n, k); the bias at n
  have el : ∀ k : Fin 4096, lidx_main_v15 (ValueIdx.ix2 p n) k = ValueIdx.ix2 p k := fun k =>
    funext fun a => Fin.ext (by match a with | ⟨0, _⟩ => rfl | ⟨1, _⟩ => rfl)
  have er : ∀ k : Fin 4096, idx_main_v14 (ridx_main_v15 (ValueIdx.ix2 p n) k) = ValueIdx.ix2 n k := fun k =>
    funext fun a => Fin.ext (by match a with | ⟨0, _⟩ => rfl | ⟨1, _⟩ => rfl)
  have eb : idx_main_v16 (idx_main_v17 (ValueIdx.ix2 p n)) = ValueIdx.ix1 n :=
    funext fun a => Fin.ext (by match a with | ⟨0, _⟩ => rfl)
  simp only [val_main_v14_apply, el, er, eb, Ideal.hostDivf_def, Ideal.hostUnary_exp_def, Ideal.hostNegf_def,
    Ideal.negf_def, Ideal.addf_def, Ideal.ofBits_def]
  exact Cert.Gating.logistic_spelt _

/-- The scaled output is the gate-weighted channel sum: the quotient by `2048` is the product with `2⁻¹¹`. -/
theorem weighted : val_main_v29 (F := Ideal) x0 x1 x2 x3 x4
    = Cert.Gating.wsum (val_main_v25 (F := Ideal) x0 x1 x2 x3 x4) (val_main_v26 (F := Ideal) x0) := by
  funext i
  obtain ⟨b, p, s, rfl⟩ : ∃ (b : Fin 64) (p : Fin 4) (s : Fin 196), i = ValueIdx.ix3 b p s :=
    ⟨i 0, i 1, i 2, ValueIdx.eq_ix3 i⟩
  rw [Cert.Gating.wsum_ix3]
  unfold Cert.Gating.wsumAt
  rw [val_main_v29_apply, val_main_v28_apply, val_main_cst_5_apply, val_main_v27_apply]
  generalize val_main_v25 (F := Ideal) x0 x1 x2 x3 x4 = w
  generalize val_main_v26 (F := Ideal) x0 = xr
  -- the batch coordinate is shared; the gate row is read at (b, p, k) and the input at (b, k, s)
  have el : ∀ k : Fin 2048, lidx_main_v27 (ValueIdx.ix3 b p s) k = ValueIdx.ix3 b p k := fun k =>
    funext fun a => Fin.ext (by match a with | ⟨0, _⟩ => rfl | ⟨1, _⟩ => rfl | ⟨2, _⟩ => rfl)
  have er : ∀ k : Fin 2048, ridx_main_v27 (ValueIdx.ix3 b p s) k = ValueIdx.ix3 b k s := fun k =>
    funext fun a => Fin.ext (by match a with | ⟨0, _⟩ => rfl | ⟨1, _⟩ => rfl | ⟨2, _⟩ => rfl)
  simp only [el, er, Ideal.hostDivf_def, Ideal.ofBits_def]
  exact Cert.Gating.div_2048 _

end Cert.ReferenceIdeal.RefValue
end
-- ==== Proof.RefValue.lean ====
/-
  The reference's two results as the specification's functions composed.

  Its first result is the gate — pooled means, then two dense layers with logistic activation — regrouped from
  `[64, 8192]` to `[64, 4, 2048]`; its second the gate-weighted channel sums of the merged input, scaled by `2⁻¹¹`, with
  the two spatial axes restored. Each is the corresponding stage lemma rewritten into the stage before it; the merged
  input and the regrouped gate are carried as they are.
-/
import proofs.«176148_j54735063220846_1_alg».proof.Proof.RefPool
import proofs.«176148_j54735063220846_1_alg».proof.Proof.RefLayers

noncomputable section

namespace Cert.ReferenceIdeal.RefValue

open Cert.ReferenceIdeal Cert.ReferenceIdeal.Gen Idealize.ShloMosaic Idealize.ShloMosaic.TcCoe Idealize.SL.Sem
open Cert.ReferenceIdeal.Read

variable (x0 : (⟨S64x2048x14x14, .f32⟩ : BufTy).Contents (Elt Ideal)) (x1 : (⟨S4096x2048, .f32⟩ : BufTy).Contents (Elt Ideal))
  (x2 : (⟨S4096, .f32⟩ : BufTy).Contents (Elt Ideal)) (x3 : (⟨S8192x4096, .f32⟩ : BufTy).Contents (Elt Ideal))
  (x4 : (⟨S8192, .f32⟩ : BufTy).Contents (Elt Ideal))

/-- The first result: the gate over the pooled, merged input, regrouped. -/
theorem result_gate : val_main_v25 (F := Ideal) x0 x1 x2 x3 x4
    = shapeCast S64x4x2048
        (Cert.Gating.layer (Cert.Gating.layer (Cert.Gating.pool (val_main_v26 (F := Ideal) x0)) x1 x2) x3 x4)
        shapeCasts_S64x8192_S64x4x2048 := by
  unfold val_main_v25
  rw [gate, hidden, pooled]

/-- The second result: the weighted sums of the merged input under the first result, with the spatial axes restored. -/
theorem result_features : val_main_v30 (F := Ideal) x0 x1 x2 x3 x4
    = shapeCast S64x4x14x14
        (Cert.Gating.wsum (val_main_v25 (F := Ideal) x0 x1 x2 x3 x4) (val_main_v26 (F := Ideal) x0))
        shapeCasts_S64x4x196_S64x4x14x14 := by
  unfold val_main_v30
  rw [weighted]

end Cert.ReferenceIdeal.RefValue

end
-- ==== Proof.lean ====
/-
  The two programs compute the same gate and the same gated features.

  Both take an input `x` of shape `[64, 2048, 14, 14]`, merge its two spatial axes, average over the merged axis, pass the
  means through two dense layers with logistic activation to obtain a gate of shape `[64, 4, 2048]` (the first result),
  and return with it, for each batch entry, gate row and position, the gate-weighted sum over channels scaled by
  `1 / 2048` (the second result, spatial axes restored). The kernel does this in four pipelined regions — means, first
  layer, second layer, weighted sums — among three reshapes; the reference in one straight line of array operations.

  Read in exact arithmetic over the extended reals the two differ in three spellings only, and each is an identity that
  holds at every extended real, so the precondition that the inputs are finite is never opened:
    * the reference sums over the two spatial axes at once, the kernel over the merged axis: the same terms in another
      order (a bijection between the positions `s` and the pairs `(s / 14, s % 14)`);
    * the reference spells the logistic function as `1 / (1 + e^(-z))`, which is what the kernel's single operation
      denotes, with the same conventions at the infinities;
    * the reference divides by `2048` where the kernel multiplies by `2⁻¹¹`.
  Everything else — a matrix product with the weight's second axis contracted against a product with the transposed
  weight, a product accumulated into zero, a change of float format — is the same function of the same arrays.

  The kernel's side: each region's result array is the specification's stage function of the region's input arrays as
  the region found them (one module per region: the body's value at an entry of its block, the block's place in the
  array, the blocks' tiling); the contents at each region's entry follow from the run's fold through the regions and
  the reshapes; and the run itself ends with the two result buffers at the fold's last contents. The reference's side:
  its run's result terms, read one operation at a time, are the same stage functions composed in the same way. The
  three frame claims are the generated runs; the idealization rewrote nothing, so it has nothing to preserve.
-/
import proofs.«176148_j54735063220846_1_alg».proof.Defs
import proofs.«176148_j54735063220846_1_alg».proof.Proof.Gen.Kernel
import proofs.«176148_j54735063220846_1_alg».proof.Proof.Gen.Kernel.Frame
import proofs.«176148_j54735063220846_1_alg».proof.Proof.Gen.KernelIdeal
import proofs.«176148_j54735063220846_1_alg».proof.Proof.Gen.KernelIdeal.Frame
import proofs.«176148_j54735063220846_1_alg».proof.Proof.Gen.ReferenceIdeal
import proofs.«176148_j54735063220846_1_alg».proof.Proof.Gen.ReferenceIdeal.Run
import proofs.«176148_j54735063220846_1_alg».proof.Proof.Gen.ReferenceIdeal.Read
import proofs.«176148_j54735063220846_1_alg».proof.Proof.Gen.Pre_finite_inputs
import proofs.«176148_j54735063220846_1_alg».proof.Proof.KernelRun
import proofs.«176148_j54735063220846_1_alg».proof.Proof.KernelValue
import proofs.«176148_j54735063220846_1_alg».proof.Proof.RefValue
import Idealize.ShloMosaic.Adequacy
import Idealize.ShloMosaic.Init

noncomputable section

namespace Cert.Proof

open Idealize.ShloMosaic Idealize.SL.Sem

/-- The kernel as printed runs to the end without a fault and leaves its arguments as launched. -/
theorem frame_kernel : Cert.frame_Kernel := fun m ρ _ => Cert.Kernel.Gen.frame m ρ

/-- So does the kernel read in exact arithmetic. -/
theorem frame_kernel_ideal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- From memories that agree on the five arguments both programs end with the gate in the first result buffer and
    the gated features in the second, as functions of the kernel's arguments. -/
theorem algebraic : Cert.algebraic_KernelIdeal_ReferenceIdeal := by
  intro m ρ m' ρ' _ hagree
  refine ⟨fun c => Cert.KernelIdeal.Fold.gateRows m c, fun c => Cert.KernelIdeal.Fold.features m c, ?_, ?_⟩
  · exact (θ_run Cert.KernelIdeal.defs _ _).mono
      (fun r h c => ⟨(h c).1.trans (Cert.KernelIdeal.Fold.result_gate m ρ c),
        (h c).2.1.trans (Cert.KernelIdeal.Fold.result_features m ρ c), (h c).2.2⟩)
      (Cert.KernelIdeal.Run.run_results (F := Ideal) m ρ)
  · refine (θ_run Cert.ReferenceIdeal.defs _ _).mono
      (fun r h c => ⟨(h c).1.trans ?_, (h c).2.1.trans ?_, (h c).2.2⟩)
      (Cert.ReferenceIdeal.Value.run (F := Ideal) m' ρ')
    · refine (Cert.ReferenceIdeal.Read.val_main_v25_eq (F := Ideal) _ _ _ _ _).trans ?_
      rw [Cert.ReferenceIdeal.RefValue.result_gate, (hagree c).1, (hagree c).2.1, (hagree c).2.2.1,
        (hagree c).2.2.2.1, (hagree c).2.2.2.2]
      rfl
    · refine (Cert.ReferenceIdeal.Read.val_main_v30_eq (F := Ideal) _ _ _ _ _).trans ?_
      rw [Cert.ReferenceIdeal.RefValue.result_features, Cert.ReferenceIdeal.RefValue.result_gate, (hagree c).1,
        (hagree c).2.1, (hagree c).2.2.1, (hagree c).2.2.2.1, (hagree c).2.2.2.2]
      rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
